-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v128) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S40000x128 : Shape := ⟨2, ![40000, 128]⟩
abbrev S2x640000 : Shape := ⟨2, ![2, 640000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S40000x128 : S_.BroadcastsInDim S40000x128 (![] : Fin 0 → Fin S40000x128.rank)
  reducesTo_S40000x128_S_d0_1 : S40000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part3 {F : FTy → Type} [FloatOps F] (main_arg12 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  main_v58

def fn_part2 {F : FTy → Type} [FloatOps F] (main_arg8 : FVec F S128x64 .f32) (main_arg9 : FVec F S128x64 .f32) (main_arg10 : FVec F S64 .f32) (main_arg11 : FVec F S128 .f32) (main_arg12 : FVec F S128 .f32) (main_v33 : IVec S_ 1) : IVec S_ 1 :=
  let main_v34 : FVec F S128x64 .f32 := Host.absf main_arg8
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S128x64 .f32 := Host.absf main_arg9
  let main_cst_14 : FVec F S_ .f32 := constant S_ .f32 0x7F800000#32
  let main_v40 : FVec F S128x64 .f32 := broadcastInDim S128x64 ![] bcast_S_S128x64 main_cst_14
  let main_v41 : IVec S128x64 1 := cmpf .olt main_v39 main_v40
  let main_c_15 : IVec S_ 1 := constantI S_ 1 1#1
  let main_v42 : IVec S_ 1 := (fun x v => Host.reduce IntOp.andi x v reducesTo_S128x64_S_d0_1 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg12 main_v48 main_v49 main_v50

def fn_part1 {F : FTy → Type} [FloatOps F] (main_arg5 : FVec F S128x128 .f32) (main_arg6 : FVec F S128x128 .f32) (main_arg7 : FVec F S128 .f32) (main_arg8 : FVec F S128x64 .f32) (main_arg9 : FVec F S128x64 .f32) (main_arg10 : FVec F S64 .f32) (main_arg11 : FVec F S128 .f32) (main_arg12 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_arg12 main_v33

def fn {F : FTy → Type} [FloatOps F] (main_arg0 : FVec F S40000x128 .f32) (main_arg1 : IVec S2x640000 32) (main_arg2 : FVec F S128x128 .f32) (main_arg3 : FVec F S128x128 .f32) (main_arg4 : FVec F S128 .f32) (main_arg5 : FVec F S128x128 .f32) (main_arg6 : FVec F S128x128 .f32) (main_arg7 : FVec F S128 .f32) (main_arg8 : FVec F S128x64 .f32) (main_arg9 : FVec F S128x64 .f32) (main_arg10 : FVec F S64 .f32) (main_arg11 : FVec F S128 .f32) (main_arg12 : FVec F S128 .f32) : IVec S_ 1 :=
  let main_v0 : FVec F S40000x128 .f32 := Host.absf main_arg0
  let main_cst : FVec F S_ .f32 := constant S_ .f32 0x7F800000#32
  let main_v1 : FVec F S40000x128 .f32 := broadcastInDim S40000x128 ![] bcast_S_S40000x128 main_cst
  let main_v2 : IVec S40000x128 1 := cmpf .olt main_v0 main_v1
  let main_c : IVec S_ 1 := constantI S_ 1 1#1
  let main_v3 : IVec S_ 1 := (fun x v => Host.reduce IntOp.andi x v reducesTo_S40000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_arg12 main_v13 main_v16
-- ==== Kernel.lean ====
abbrev S40000x128 : Shape := ⟨2, ![40000, 128]⟩
abbrev S2x640000 : Shape := ⟨2, ![2, 640000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x640000 : Shape := ⟨2, ![1, 640000]⟩
abbrev S640000 : Shape := ⟨1, ![640000]⟩
abbrev S_ : Shape := ⟨0, ![]⟩
abbrev S40000 : Shape := ⟨1, ![40000]⟩
abbrev S640000x1 : Shape := ⟨2, ![640000, 1]⟩
abbrev S640000x128 : Shape := ⟨2, ![640000, 128]⟩
abbrev S40000x1 : Shape := ⟨2, ![40000, 1]⟩
abbrev S1x128 : Shape := ⟨2, ![1, 128]⟩
abbrev S5000x128 : Shape := ⟨2, ![5000, 128]⟩
abbrev S5000 : Shape := ⟨1, ![5000]⟩
abbrev S5000x1 : Shape := ⟨2, ![5000, 1]⟩
abbrev S1x64 : Shape := ⟨2, ![1, 64]⟩
abbrev S40000x64 : Shape := ⟨2, ![40000, 64]⟩
abbrev S5000x64 : Shape := ⟨2, ![5000, 64]⟩

abbrev nBuf : Space → Nat
  | .hbm => 84
  | .vmem => 31
  | .smem => 0
  | _ => 0

abbrev bufTy : (tb : Table) → Fin (tcTables nBuf tb) → BufTy
  | .hbm, ⟨0, _⟩ => ⟨S40000x128, .f32⟩
  | .hbm, ⟨1, _⟩ => ⟨S2x640000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x64, .f32⟩
  | .hbm, ⟨9, _⟩ => ⟨S128x64, .f32⟩
  | .hbm, ⟨10, _⟩ => ⟨S64, .f32⟩
  | .hbm, ⟨11, _⟩ => ⟨S128, .f32⟩
  | .hbm, ⟨12, _⟩ => ⟨S128, .f32⟩
  | .hbm, ⟨13, _⟩ => ⟨S1x640000, .i32⟩
  | .hbm, ⟨14, _⟩ => ⟨S640000, .i32⟩
  | .hbm, ⟨15, _⟩ => ⟨S1x640000, .i32⟩
  | .hbm, ⟨16, _⟩ => ⟨S640000, .i32⟩
  | .hbm, ⟨17, _⟩ => ⟨S_, .f32⟩
  | .hbm, ⟨18, _⟩ => ⟨S640000, .f32⟩
  | .hbm, ⟨19, _⟩ => ⟨S_, .f32⟩
  | .hbm, ⟨20, _⟩ => ⟨S40000, .f32⟩
  | .hbm, ⟨21, _⟩ => ⟨S640000x1, .i32⟩
  | .hbm, ⟨22, _⟩ => ⟨S40000, .f32⟩
  | .hbm, ⟨23, _⟩ => ⟨S_, .f32⟩
  | .hbm, ⟨24, _⟩ => ⟨S40000, .f32⟩
  | .hbm, ⟨25, _⟩ => ⟨S40000, .f32⟩
  | .hbm, ⟨26, _⟩ => ⟨S_, .i32⟩
  | .hbm, ⟨27, _⟩ => ⟨S640000, .i32⟩
  | .hbm, ⟨28, _⟩ => ⟨S640000, .i1⟩
  | .hbm, ⟨29, _⟩ => ⟨S_, .i32⟩
  | .hbm, ⟨30, _⟩ => ⟨S640000, .i32⟩
  | .hbm, ⟨31, _⟩ => ⟨S640000, .i32⟩
  | .hbm, ⟨32, _⟩ => ⟨S640000, .i32⟩
  | .hbm, ⟨33, _⟩ => ⟨S640000x1, .i32⟩
  | .hbm, ⟨34, _⟩ => ⟨S640000x128, .f32⟩
  | .hbm, ⟨35, _⟩ => ⟨S_, .f32⟩
  | .hbm, ⟨36, _⟩ => ⟨S40000x128, .f32⟩
  | .hbm, ⟨37, _⟩ => ⟨S640000x1, .i32⟩
  | .hbm, ⟨38, _⟩ => ⟨S40000x128, .f32⟩
  | .hbm, ⟨39, _⟩ => ⟨S40000x1, .f32⟩
  | .hbm, ⟨40, _⟩ => ⟨S40000x128, .f32⟩
  | .hbm, ⟨41, _⟩ => ⟨S40000x128, .f32⟩
  | .hbm, ⟨42, _⟩ => ⟨S1x128, .f32⟩
  | .hbm, ⟨43, _⟩ => ⟨S1x128, .f32⟩
  | .hbm, ⟨44, _⟩ => ⟨S1x128, .f32⟩
  | .hbm, ⟨45, _⟩ => ⟨S40000x128, .f32⟩
  | .hbm, ⟨46, _⟩ => ⟨S_, .i32⟩
  | .hbm, ⟨47, _⟩ => ⟨S640000, .i32⟩
  | .hbm, ⟨48, _⟩ => ⟨S640000, .i1⟩
  | .hbm, ⟨49, _⟩ => ⟨S_, .i32⟩
  | .hbm, ⟨50, _⟩ => ⟨S640000, .i32⟩
  | .hbm, ⟨51, _⟩ => ⟨S640000, .i32⟩
  | .hbm, ⟨52, _⟩ => ⟨S640000, .i32⟩
  | .hbm, ⟨53, _⟩ => ⟨S640000x1, .i32⟩
  | .hbm, ⟨54, _⟩ => ⟨S640000x128, .f32⟩
  | .hbm, ⟨55, _⟩ => ⟨S_, .f32⟩
  | .hbm, ⟨56, _⟩ => ⟨S40000x128, .f32⟩
  | .hbm, ⟨57, _⟩ => ⟨S640000x1, .i32⟩
  | .hbm, ⟨58, _⟩ => ⟨S40000x128, .f32⟩
  | .hbm, ⟨59, _⟩ => ⟨S40000x1, .f32⟩
  | .hbm, ⟨60, _⟩ => ⟨S40000x128, .f32⟩
  | .hbm, ⟨61, _⟩ => ⟨S40000x128, .f32⟩
  | .hbm, ⟨62, _⟩ => ⟨S1x128, .f32⟩
  | .hbm, ⟨63, _⟩ => ⟨S1x128, .f32⟩
  | .hbm, ⟨64, _⟩ => ⟨S1x128, .f32⟩
  | .hbm, ⟨65, _⟩ => ⟨S40000x128, .f32⟩
  | .hbm, ⟨66, _⟩ => ⟨S_, .i32⟩
  | .hbm, ⟨67, _⟩ => ⟨S640000, .i32⟩
  | .hbm, ⟨68, _⟩ => ⟨S640000, .i1⟩
  | .hbm, ⟨69, _⟩ => ⟨S_, .i32⟩
  | .hbm, ⟨70, _⟩ => ⟨S640000, .i32⟩
  | .hbm, ⟨71, _⟩ => ⟨S640000, .i32⟩
  | .hbm, ⟨72, _⟩ => ⟨S640000, .i32⟩
  | .hbm, ⟨73, _⟩ => ⟨S640000x1, .i32⟩
  | .hbm, ⟨74, _⟩ => ⟨S640000x128, .f32⟩
  | .hbm, ⟨75, _⟩ => ⟨S_, .f32⟩
  | .hbm, ⟨76, _⟩ => ⟨S40000x128, .f32⟩
  | .hbm, ⟨77, _⟩ => ⟨S640000x1, .i32⟩
  | .hbm, ⟨78, _⟩ => ⟨S40000x128, .f32⟩
  | .hbm, ⟨79, _⟩ => ⟨S40000x1, .f32⟩
  | .hbm, ⟨80, _⟩ => ⟨S40000x128, .f32⟩
  | .hbm, ⟨81, _⟩ => ⟨S40000x128, .f32⟩
  | .hbm, ⟨82, _⟩ => ⟨S1x64, .f32⟩
  | .hbm, ⟨83, _⟩ => ⟨S40000x64, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S1x128, .f32⟩
  | .local _ .vmem, ⟨8, _⟩ => ⟨S1x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S128x128, .f32⟩
  | .local _ .vmem, ⟨16, _⟩ => ⟨S128x128, .f32⟩
  | .local _ .vmem, ⟨17, _⟩ => ⟨S1x128, .f32⟩
  | .local _ .vmem, ⟨18, _⟩ => ⟨S1x128, .f32⟩
  | .local _ .vmem, ⟨19, _⟩ => ⟨S1x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S128x64, .f32⟩
  | .local _ .vmem, ⟨27, _⟩ => ⟨S128x64, .f32⟩
  | .local _ .vmem, ⟨28, _⟩ => ⟨S1x64, .f32⟩
  | .local _ .vmem, ⟨29, _⟩ => ⟨S5000x64, .f32⟩
  | .local _ .vmem, ⟨30, _⟩ => ⟨S5000x64, .f32⟩
  | _, _ => ⟨S40000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_1 : Ref sig .tc := ⟨.hbm, 23, rfl⟩
abbrev main_v8 : Ref sig .tc := ⟨.hbm, 24, rfl⟩
abbrev main_v9 : Ref sig .tc := ⟨.hbm, 25, rfl⟩
abbrev main_c : Ref sig .tc := ⟨.hbm, 26, rfl⟩
abbrev main_v10 : Ref sig .tc := ⟨.hbm, 27, rfl⟩
abbrev main_v11 : Ref sig .tc := ⟨.hbm, 28, rfl⟩
abbrev main_c_2 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_cst_3 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_c_4 : Ref sig .tc := ⟨.hbm, 46, rfl⟩
abbrev main_v27 : Ref sig .tc := ⟨.hbm, 47, rfl⟩
abbrev main_v28 : Ref sig .tc := ⟨.hbm, 48, rfl⟩
abbrev main_c_5 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_cst_6 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_c_7 : Ref sig .tc := ⟨.hbm, 66, rfl⟩
abbrev main_v44 : Ref sig .tc := ⟨.hbm, 67, rfl⟩
abbrev main_v45 : Ref sig .tc := ⟨.hbm, 68, rfl⟩
abbrev main_c_8 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_cst_9 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg7_0 : Ref sig .tc := ⟨.vmem, 20, rfl⟩
abbrev cc1_stg7_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg3_0 : Ref sig .tc := ⟨.vmem, 27, rfl⟩
abbrev cc2_stg4_0 : Ref sig .tc := ⟨.vmem, 28, rfl⟩
abbrev cc2_stg5_0 : Ref sig .tc := ⟨.vmem, 29, rfl⟩
abbrev cc2_stg5_1 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem6_0 : DmaSem sig := 19
abbrev cc1_sem7_0 : DmaSem sig := 20
abbrev cc1_sem7_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem3_0 : DmaSem sig := 27
abbrev cc2_sem4_0 : DmaSem sig := 28
abbrev cc2_sem5_0 : DmaSem sig := 29
abbrev cc2_sem5_1 : DmaSem sig := 30

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S5000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S_S40000 : S_.BroadcastsInDim S40000 (![] : Fin 0 → Fin S40000.rank)
  bcast_S640000_S640000x1_0 : S640000.BroadcastsInDim S640000x1 (![0] : Fin 1 → Fin S640000x1.rank)
  bcast_S_S40000x128 : S_.BroadcastsInDim S40000x128 (![] : Fin 0 → Fin S40000x128.rank)
  bcast_S40000_S40000x1_0 : S40000.BroadcastsInDim S40000x1 (![0] : Fin 1 → Fin S40000x1.rank)
  bcast_S40000x1_S40000x128_0_1 : S40000x1.BroadcastsInDim S40000x128 (![0, 1] : Fin 2 → Fin S40000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  reduces_S5000x128_S5000 : S5000x128.Reduces [1] S5000
  shapeCasts_S5000_S5000x1 : S5000.ShapeCasts S5000x1
  broadcasts_S5000x1_S5000x128 : S5000x1.Broadcasts S5000x128
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  scatter_S40000_S640000x1_S640000_n_0_0_1_wf : ScatterDims.WF S40000 S640000x1 S640000 [] [0] [0] 1
  gather_S40000x128_S640000x1_S640000x128_1_0_n_n_0_1_1128_wf : GatherDims.WF S40000x128 S640000x1 S640000x128 [1] [0] [] [0] [] 1 ![1, 128]
  scatter_S40000x128_S640000x1_S640000x128_1_0_0_1_wf : ScatterDims.WF S40000x128 S640000x1 S640000x128 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S40000x128.size a
  hwx0_0 : ∀ i : grid0.Coords, EltTy.bits .f32 = 32 ∨ (Rect.block (s := S40000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S40000x128.size a
  hwx0_1 : ∀ i : grid0.Coords, EltTy.bits .f32 = 32 ∨ (Rect.block (s := S40000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S5000x128.size a ≤ S40000x128.size a
  hwx0_7 : ∀ i : grid0.Coords, EltTy.bits .f32 = 32 ∨ (Rect.block (s := S40000x128) S5000x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S40000x128.size a
  hwx1_0 : ∀ i : grid1.Coords, EltTy.bits .f32 = 32 ∨ (Rect.block (s := S40000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S40000x128.size a
  hwx1_1 : ∀ i : grid1.Coords, EltTy.bits .f32 = 32 ∨ (Rect.block (s := S40000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x128.size a ≤ S40000x128.size a
  hwx1_7 : ∀ i : grid1.Coords, EltTy.bits .f32 = 32 ∨ (Rect.block (s := S40000x128) S5000x128.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S40000x128.size a
  hwx2_0 : ∀ i : grid2.Coords, EltTy.bits .f32 = 32 ∨ (Rect.block (s := S40000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S40000x128.size a
  hwx2_1 : ∀ i : grid2.Coords, EltTy.bits .f32 = 32 ∨ (Rect.block (s := S40000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x64.size a ≤ S128x64.size a
  hwx2_2 : ∀ i : grid2.Coords, EltTy.bits .f32 = 32 ∨ (Rect.block (s := S128x64) S128x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x64.size a ≤ S128x64.size a
  hwx2_3 : ∀ i : grid2.Coords, EltTy.bits .f32 = 32 ∨ (Rect.block (s := S128x64) S128x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x64.size a ≤ S40000x64.size a
  hwx2_5 : ∀ i : grid2.Coords, EltTy.bits .f32 = 32 ∨ (Rect.block (s := S40000x64) S5000x64.size (cc2_transform_5 i) (hinb2_5 i)).WholeWords (EltTy.packing .f32)

variable [Facts₀]

def scatter_S40000_S640000x1_S640000_n_0_0_1 : ScatterDims S40000 S640000x1 S640000 where
  updateWindowDims := []
  insertedWindowDims := [0]
  scatterDimsToOperandDims := [0]
  indexVectorDim := 1
  wf := scatter_S40000_S640000x1_S640000_n_0_0_1_wf
def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_v22) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v25) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v26) S5000x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v39) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v40) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v41) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v42) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v43) S5000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v56) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v43) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S128x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg9) S128x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v57) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v58) S5000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S40000x128 : Shape := ⟨2, ![40000, 128]⟩
abbrev S2x640000 : Shape := ⟨2, ![2, 640000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S40000 : Shape := ⟨1, ![40000]⟩
abbrev S40000x1 : Shape := ⟨2, ![40000, 1]⟩
abbrev S1x128 : Shape := ⟨2, ![1, 128]⟩
abbrev S40000x64 : Shape := ⟨2, ![40000, 64]⟩
abbrev S1x64 : Shape := ⟨2, ![1, 64]⟩

abbrev nBuf : Space → Nat
  | .hbm => 174
  | .vmem => 0
  | .smem => 0
  | _ => 0

abbrev hbmTy0_0 (i : Nat) : BufTy := match i % 128 with
  | 0 => ⟨S40000x128, .f32⟩
  | 1 => ⟨S2x640000, .i32⟩
  | 2 => ⟨S128x128, .f32⟩
  | 3 => ⟨S128x128, .f32⟩
  | 4 => ⟨S128, .f32⟩
  | 5 => ⟨S128x128, .f32⟩
  | 6 => ⟨S128x128, .f32⟩
  | 7 => ⟨S128, .f32⟩
  | 8 => ⟨S128x64, .f32⟩
  | 9 => ⟨S128x64, .f32⟩
  | 10 => ⟨S64, .f32⟩
  | 11 => ⟨S128, .f32⟩
  | 12 => ⟨S128, .f32⟩
  | 13 => ⟨S1x640000, .i32⟩
  | 14 => ⟨S640000, .i32⟩
  | 15 => ⟨S1x640000, .i32⟩
  | 16 => ⟨S640000, .i32⟩
  | 17 => ⟨S_, .i32⟩
  | 18 => ⟨S640000, .i32⟩
  | 19 => ⟨S640000, .i1⟩
  | 20 => ⟨S_, .i32⟩
  | 21 => ⟨S640000, .i32⟩
  | 22 => ⟨S640000, .i32⟩
  | 23 => ⟨S640000, .i32⟩
  | 24 => ⟨S640000x1, .i32⟩
  | 25 => ⟨S640000x128, .f32⟩
  | 26 => ⟨S_, .f32⟩
  | 27 => ⟨S40000x128, .f32⟩
  | 28 => ⟨S640000x1, .i32⟩
  | 29 => ⟨S40000x128, .f32⟩
  | 30 => ⟨S_, .f32⟩
  | 31 => ⟨S640000, .f32⟩
  | 32 => ⟨S_, .f32⟩
  | 33 => ⟨S40000, .f32⟩
  | 34 => ⟨S640000x1, .i32⟩
  | 35 => ⟨S40000, .f32⟩
  | 36 => ⟨S_, .f32⟩
  | 37 => ⟨S40000, .f32⟩
  | 38 => ⟨S40000, .f32⟩
  | 39 => ⟨S40000x1, .f32⟩
  | 40 => ⟨S40000x128, .f32⟩
  | 41 => ⟨S40000x128, .f32⟩
  | 42 => ⟨S40000x128, .f32⟩
  | 43 => ⟨S1x128, .f32⟩
  | 44 => ⟨S40000x128, .f32⟩
  | 45 => ⟨S40000x128, .f32⟩
  | 46 => ⟨S40000x128, .f32⟩
  | 47 => ⟨S40000x128, .f32⟩
  | 48 => ⟨S_, .f32⟩
  | 49 => ⟨S40000, .f32⟩
  | 50 => ⟨S40000x1, .f32⟩
  | 51 => ⟨S_, .f32⟩
  | 52 => ⟨S40000x1, .f32⟩
  | 53 => ⟨S40000x1, .f32⟩
  | 54 => ⟨S40000x128, .f32⟩
  | 55 => ⟨S40000x128, .f32⟩
  | 56 => ⟨S40000x128, .f32⟩
  | 57 => ⟨S_, .f32⟩
  | 58 => ⟨S40000, .f32⟩
  | 59 => ⟨S40000x1, .f32⟩
  | 60 => ⟨S_, .f32⟩
  | 61 => ⟨S40000x1, .f32⟩
  | 62 => ⟨S40000x1, .f32⟩
  | 63 => ⟨S40000x128, .f32⟩
  | 64 => ⟨S40000x128, .f32⟩
  | 65 => ⟨S_, .f32⟩
  | 66 => ⟨S40000x1, .f32⟩
  | 67 => ⟨S40000x1, .f32⟩
  | 68 => ⟨S40000x1, .f32⟩
  | 69 => ⟨S40000x128, .f32⟩
  | 70 => ⟨S40000x128, .f32⟩
  | 71 => ⟨S1x128, .f32⟩
  | 72 => ⟨S40000x128, .f32⟩
  | 73 => ⟨S40000x128, .f32⟩
  | 74 => ⟨S1x128, .f32⟩
  | 75 => ⟨S40000x128, .f32⟩
  | 76 => ⟨S40000x128, .f32⟩
  | 77 => ⟨S_, .f32⟩
  | 78 => ⟨S40000x128, .f32⟩
  | 79 => ⟨S40000x128, .f32⟩
  | 80 => ⟨S_, .i32⟩
  | 81 => ⟨S640000, .i32⟩
  | 82 => ⟨S640000, .i1⟩
  | 83 => ⟨S_, .i32⟩
  | 84 => ⟨S640000, .i32⟩
  | 85 => ⟨S640000, .i32⟩
  | 86 => ⟨S640000, .i32⟩
  | 87 => ⟨S640000x1, .i32⟩
  | 88 => ⟨S640000x128, .f32⟩
  | 89 => ⟨S_, .f32⟩
  | 90 => ⟨S40000x128, .f32⟩
  | 91 => ⟨S640000x1, .i32⟩
  | 92 => ⟨S40000x128, .f32⟩
  | 93 => ⟨S_, .f32⟩
  | 94 => ⟨S640000, .f32⟩
  | 95 => ⟨S_, .f32⟩
  | 96 => ⟨S40000, .f32⟩
  | 97 => ⟨S640000x1, .i32⟩
  | 98 => ⟨S40000, .f32⟩
  | 99 => ⟨S_, .f32⟩
  | 100 => ⟨S40000, .f32⟩
  | 101 => ⟨S40000, .f32⟩
  | 102 => ⟨S40000x1, .f32⟩
  | 103 => ⟨S40000x128, .f32⟩
  | 104 => ⟨S40000x128, .f32⟩
  | 105 => ⟨S40000x128, .f32⟩
  | 106 => ⟨S1x128, .f32⟩
  | 107 => ⟨S40000x128, .f32⟩
  | 108 => ⟨S40000x128, .f32⟩
  | 109 => ⟨S40000x128, .f32⟩
  | 110 => ⟨S40000x128, .f32⟩
  | 111 => ⟨S_, .f32⟩
  | 112 => ⟨S40000, .f32⟩
  | 113 => ⟨S40000x1, .f32⟩
  | 114 => ⟨S_, .f32⟩
  | 115 => ⟨S40000x1, .f32⟩
  | 116 => ⟨S40000x1, .f32⟩
  | 117 => ⟨S40000x128, .f32⟩
  | 118 => ⟨S40000x128, .f32⟩
  | 119 => ⟨S40000x128, .f32⟩
  | 120 => ⟨S_, .f32⟩
  | 121 => ⟨S40000, .f32⟩
  | 122 => ⟨S40000x1, .f32⟩
  | 123 => ⟨S_, .f32⟩
  | 124 => ⟨S40000x1, .f32⟩
  | 125 => ⟨S40000x1, .f32⟩
  | 126 => ⟨S40000x128, .f32⟩
  | 127 => ⟨S40000x128, .f32⟩
  | _ => ⟨S40000x128, .f32⟩

abbrev hbmTy0_1 (i : Nat) : BufTy := match i % 128 with
  | 0 => ⟨S_, .f32⟩
  | 1 => ⟨S40000x1, .f32⟩
  | 2 => ⟨S40000x1, .f32⟩
  | 3 => ⟨S40000x1, .f32⟩
  | 4 => ⟨S40000x128, .f32⟩
  | 5 => ⟨S40000x128, .f32⟩
  | 6 => ⟨S1x128, .f32⟩
  | 7 => ⟨S40000x128, .f32⟩
  | 8 => ⟨S40000x128, .f32⟩
  | 9 => ⟨S1x128, .f32⟩
  | 10 => ⟨S40000x128, .f32⟩
  | 11 => ⟨S40000x128, .f32⟩
  | 12 => ⟨S_, .f32⟩
  | 13 => ⟨S40000x128, .f32⟩
  | 14 => ⟨S40000x128, .f32⟩
  | 15 => ⟨S_, .i32⟩
  | 16 => ⟨S640000, .i32⟩
  | 17 => ⟨S640000, .i1⟩
  | 18 => ⟨S_, .i32⟩
  | 19 => ⟨S640000, .i32⟩
  | 20 => ⟨S640000, .i32⟩
  | 21 => ⟨S640000, .i32⟩
  | 22 => ⟨S640000x1, .i32⟩
  | 23 => ⟨S640000x128, .f32⟩
  | 24 => ⟨S_, .f32⟩
  | 25 => ⟨S40000x128, .f32⟩
  | 26 => ⟨S640000x1, .i32⟩
  | 27 => ⟨S40000x128, .f32⟩
  | 28 => ⟨S_, .f32⟩
  | 29 => ⟨S640000, .f32⟩
  | 30 => ⟨S_, .f32⟩
  | 31 => ⟨S40000, .f32⟩
  | 32 => ⟨S640000x1, .i32⟩
  | 33 => ⟨S40000, .f32⟩
  | 34 => ⟨S_, .f32⟩
  | 35 => ⟨S40000, .f32⟩
  | 36 => ⟨S40000, .f32⟩
  | 37 => ⟨S40000x1, .f32⟩
  | 38 => ⟨S40000x128, .f32⟩
  | 39 => ⟨S40000x128, .f32⟩
  | 40 => ⟨S40000x64, .f32⟩
  | 41 => ⟨S1x64, .f32⟩
  | 42 => ⟨S40000x64, .f32⟩
  | 43 => ⟨S40000x64, .f32⟩
  | 44 => ⟨S40000x64, .f32⟩
  | 45 => ⟨S40000x64, .f32⟩
  | _ => ⟨S40000x128, .f32⟩

abbrev hbmTy (i : Nat) : BufTy := match i / 128 with
  | 0 => hbmTy0_0 i
  | 1 => hbmTy0_1 i
  | _ => ⟨S40000x128, .f32⟩

abbrev bufTy : (tb : Table) → Fin (tcTables nBuf tb) → BufTy
  | .hbm, ⟨i, _⟩ => hbmTy i
  | _, _ => ⟨S40000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_1 : Ref sig .tc := ⟨.hbm, 30, rfl⟩
abbrev main_v14 : Ref sig .tc := ⟨.hbm, 31, rfl⟩
abbrev main_cst_2 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_3 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_4 : Ref sig .tc := ⟨.hbm, 48, rfl⟩
abbrev main_v29 : Ref sig .tc := ⟨.hbm, 49, rfl⟩
abbrev main_v30 : Ref sig .tc := ⟨.hbm, 50, rfl⟩
abbrev main_cst_5 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_cst_6 : Ref sig .tc := ⟨.hbm, 57, rfl⟩
abbrev main_v36 : Ref sig .tc := ⟨.hbm, 58, rfl⟩
abbrev main_v37 : Ref sig .tc := ⟨.hbm, 59, rfl⟩
abbrev main_cst_7 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_cst_8 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_call0_cst : Ref sig .tc := ⟨.hbm, 77, rfl⟩
abbrev main_call0_v0 : Ref sig .tc := ⟨.hbm, 78, rfl⟩
abbrev main_v53 : Ref sig .tc := ⟨.hbm, 79, rfl⟩
abbrev main_c_9 : Ref sig .tc := ⟨.hbm, 80, rfl⟩
abbrev main_v54 : Ref sig .tc := ⟨.hbm, 81, rfl⟩
abbrev main_v55 : Ref sig .tc := ⟨.hbm, 82, rfl⟩
abbrev main_c_10 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_cst_11 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_cst_12 : Ref sig .tc := ⟨.hbm, 93, rfl⟩
abbrev main_v64 : Ref sig .tc := ⟨.hbm, 94, rfl⟩
abbrev main_cst_13 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_cst_14 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_cst_15 : Ref sig .tc := ⟨.hbm, 111, rfl⟩
abbrev main_v79 : Ref sig .tc := ⟨.hbm, 112, rfl⟩
abbrev main_v80 : Ref sig .tc := ⟨.hbm, 113, rfl⟩
abbrev main_cst_16 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_cst_17 : Ref sig .tc := ⟨.hbm, 120, rfl⟩
abbrev main_v86 : Ref sig .tc := ⟨.hbm, 121, rfl⟩
abbrev main_v87 : Ref sig .tc := ⟨.hbm, 122, rfl⟩
abbrev main_cst_18 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_cst_19 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_call1_cst : Ref sig .tc := ⟨.hbm, 140, rfl⟩
abbrev main_call1_v0 : Ref sig .tc := ⟨.hbm, 141, rfl⟩
abbrev main_v103 : Ref sig .tc := ⟨.hbm, 142, rfl⟩
abbrev main_c_20 : Ref sig .tc := ⟨.hbm, 143, rfl⟩
abbrev main_v104 : Ref sig .tc := ⟨.hbm, 144, rfl⟩
abbrev main_v105 : Ref sig .tc := ⟨.hbm, 145, rfl⟩
abbrev main_c_21 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_cst_22 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_cst_23 : Ref sig .tc := ⟨.hbm, 156, rfl⟩
abbrev main_v114 : Ref sig .tc := ⟨.hbm, 157, rfl⟩
abbrev main_cst_24 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_cst_25 : Ref sig .tc := ⟨.hbm, 162, rfl⟩
abbrev main_v118 : Ref sig .tc := ⟨.hbm, 163, rfl⟩
abbrev main_v119 : Ref sig .tc := ⟨.hbm, 164, rfl⟩
abbrev main_v120 : Ref sig .tc := ⟨.hbm, 165, rfl⟩
abbrev main_v121 : Ref sig .tc := ⟨.hbm, 166, rfl⟩
abbrev main_v122 : Ref sig .tc := ⟨.hbm, 167, rfl⟩
abbrev main_v123 : Ref sig .tc := ⟨.hbm, 168, rfl⟩
abbrev main_v124 : Ref sig .tc := ⟨.hbm, 169, rfl⟩
abbrev main_v125 : Ref sig .tc := ⟨.hbm, 170, rfl⟩
abbrev main_v126 : Ref sig .tc := ⟨.hbm, 171, rfl⟩
abbrev main_v127 : Ref sig .tc := ⟨.hbm, 172, rfl⟩
abbrev main_v128 : Ref sig .tc := ⟨.hbm, 173, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S40000x128 : S_.BroadcastsInDim S40000x128 (![] : Fin 0 → Fin S40000x128.rank)
  bcast_S_S40000 : S_.BroadcastsInDim S40000 (![] : Fin 0 → Fin S40000.rank)
  bcast_S40000_S40000x1_0 : S40000.BroadcastsInDim S40000x1 (![0] : Fin 1 → Fin S40000x1.rank)
  bcast_S40000x1_S40000x128_0_1 : S40000x1.BroadcastsInDim S40000x128 (![0, 1] : Fin 2 → Fin S40000x128.rank)
  bcast_S128_S1x128_1 : S128.BroadcastsInDim S1x128 (![1] : Fin 1 → Fin S1x128.rank)
  bcast_S1x128_S40000x128_0_1 : S1x128.BroadcastsInDim S40000x128 (![0, 1] : Fin 2 → Fin S40000x128.rank)
  reducesTo_S40000x128_S40000_d1 : S40000x128.ReducesTo [1] S40000
  h_S_ : 0 < S_.numel
  bcast_S_S40000x1 : S_.BroadcastsInDim S40000x1 (![] : Fin 0 → Fin S40000x1.rank)
  bcast_S64_S1x64_1 : S64.BroadcastsInDim S1x64 (![1] : Fin 1 → Fin S1x64.rank)
  bcast_S1x64_S40000x64_0_1 : S1x64.BroadcastsInDim S40000x64 (![0, 1] : Fin 2 → Fin S40000x64.rank)
  gather_S40000x128_S640000x1_S640000x128_1_0_n_n_0_1_1128_wf : GatherDims.WF S40000x128 S640000x1 S640000x128 [1] [0] [] [0] [] 1 ![1, 128]
  scatter_S40000x128_S640000x1_S640000x128_1_0_0_1_wf : ScatterDims.WF S40000x128 S640000x1 S640000x128 [1] [0] [0] 1
  scatter_S40000_S640000x1_S640000_n_0_0_1_wf : ScatterDims.WF S40000 S640000x1 S640000 [] [0] [0] 1
  dot_S40000x128_S128x128_S40000x128_1_0_0_1_n_n_wf : DotDims.WF S40000x128 S128x128 S40000x128 [1] [0] [0] [1] [] []
  dot_S40000x128_S128x64_S40000x64_1_0_0_1_n_n_wf : DotDims.WF S40000x128 S128x64 S40000x64 [1] [0] [0] [1] [] []

variable [Facts₀]

def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf
def scatter_S40000_S640000x1_S640000_n_0_0_1 : ScatterDims S40000 S640000x1 S640000 where
  updateWindowDims := []
  insertedWindowDims := [0]
  scatterDimsToOperandDims := [0]
  indexVectorDim := 1
  wf := scatter_S40000_S640000x1_S640000_n_0_0_1_wf
def dot_S40000x128_S128x128_S40000x128_1_0_0_1_n_n : DotDims S40000x128 S128x128 S40000x128 where
  lhsContracting := [1]
  rhsContracting := [0]
  lhsNonContracting := [0]
  rhsNonContracting := [1]
  lhsBatch := []
  rhsBatch := []
  wf := dot_S40000x128_S128x128_S40000x128_1_0_0_1_n_n_wf
def dot_S40000x128_S128x64_S40000x64_1_0_0_1_n_n : DotDims S40000x128 S128x64 S40000x64 where
  lhsContracting := [1]
  rhsContracting := [0]
  lhsNonContracting := [0]
  rhsNonContracting := [1]
  lhsBatch := []
  rhsBatch := []
  wf := dot_S40000x128_S128x64_S40000x64_1_0_0_1_n_n_wf

class Facts : Prop extends Facts₀ where

variable [Facts]
-- ==== Proof.KRun.lean ====
/-
  The kernel program's run with EVERY unscoped buffer named at the end.

  The program is three launched regions among stretches of host operations.  Its run ends with every buffer of
  the TensorCore's unscoped memory at the last boundary's contents — the fold through the host stretches and the
  regions' write-backs that the frame module names `W6`: in particular the result buffer, not only the arguments.
-/
import proofs.«101974_j3762391351459_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with each unscoped buffer of each core at the
    contents the last segment boundary names. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h => h)

end Cert.KernelIdeal.Run

end
-- ==== Proof.KHost.lean ====
/-
  The buffers each region finds, read back through the host stretches.

  Before each region the host gathers, for every edge, the source node's row of the current features, adds the rows
  up per destination node and divides by the node's clamped in-degree: one chain of host operations (`aggK`), the
  same before all three regions, applied to the current features (the input features, then each region's output)
  with the same source and destination index vectors and the same count, which the first stretch computes once.
  The parameter vectors are laid out as rows [1, d]; the weight matrices and everything else a stretch does not
  write are found as they were.
-/
import proofs.«101974_j3762391351459_1_alg».proof.Proof.Gen.KernelIdeal.Frame
import Idealize.ShloMosaic.PureOps.Ideal

set_option maxRecDepth 16384

noncomputable section

namespace Cert.KernelIdeal.HostRead

open Cert.KernelIdeal Cert.KernelIdeal.Gen Idealize.ShloMosaic Idealize.ShloMosaic.TcCoe Idealize.SL.Sem
open Idealize.ShloMosaic.StableHlo

/-- The neighbourhood mean of the rows of `h`: rows gathered at the (wrapped) source indices, added up per
    destination, divided by the count spread over the row. -/
def aggK (h : (⟨S40000x128, .f32⟩ : BufTy).Contents (Elt Ideal)) (src dst : (⟨S640000, .i32⟩ : BufTy).Contents (Elt Ideal))
    (cnt : (⟨S40000, .f32⟩ : BufTy).Contents (Elt Ideal)) : (⟨S40000x128, .f32⟩ : BufTy).Contents (Elt Ideal) :=
  Host.divf (F := Ideal)
    (Host.scatterAdd scatter_S40000x128_S640000x1_S640000x128_1_0_0_1
      (broadcastInDim S40000x128 ![] bcast_S_S40000x128 (constant (F := Ideal) S_ .f32 0x00000000#32))
      (broadcastInDim S640000x1 ![0] bcast_S640000_S640000x1_0 dst)
      (Host.gather gather_S40000x128_S640000x1_S640000x128_1_0_n_n_0_1_1128 h
        (broadcastInDim S640000x1 ![0] bcast_S640000_S640000x1_0
          (select (cmpi .slt src (broadcastInDim S640000 ![] bcast_S_S640000 (constantI S_ 32 0#32)))
            (addi src (broadcastInDim S640000 ![] bcast_S_S640000 (constantI S_ 32 40000#32))) src))))
    (broadcastInDim S40000x128 ![0, 1] bcast_S40000x1_S40000x128_0_1
      (broadcastInDim S40000x1 ![0] bcast_S40000_S40000x1_0 cnt))

/-- Row `r` of the edge table as a vector. -/
def srcK (e : (⟨S2x640000, .i32⟩ : BufTy).Contents (Elt Ideal)) : (⟨S640000, .i32⟩ : BufTy).Contents (Elt Ideal) :=
  fun i => shapeCast S640000 (extractStridedSlice S1x640000 ![0, 0] e slices_S2x640000_S1x640000_0_0)
    shapeCasts_S1x640000_S640000 i

def dstK (e : (⟨S2x640000, .i32⟩ : BufTy).Contents (Elt Ideal)) : (⟨S640000, .i32⟩ : BufTy).Contents (Elt Ideal) :=
  fun i => shapeCast S640000 (extractStridedSlice S1x640000 ![1, 0] e slices_S2x640000_S1x640000_1_0)
    shapeCasts_S1x640000_S640000 i

/-- The clamped in-degree: ones added up per destination, at least one. -/
def cntK (dst : (⟨S640000, .i32⟩ : BufTy).Contents (Elt Ideal)) : (⟨S40000, .f32⟩ : BufTy).Contents (Elt Ideal) :=
  maximumf (F := Ideal)
    (Host.scatterAdd scatter_S40000_S640000x1_S640000_n_0_0_1
      (broadcastInDim S40000 ![] bcast_S_S40000 (constant (F := Ideal) S_ .f32 0x00000000#32))
      (broadcastInDim S640000x1 ![0] bcast_S640000_S640000x1_0 dst)
      (broadcastInDim S640000 ![] bcast_S_S640000 (constant (F := Ideal) S_ .f32 0x3F800000#32)))
    (broadcastInDim S40000 ![] bcast_S_S40000 (constant (F := Ideal) S_ .f32 0x3F800000#32))

/-- A vector `[d]` laid out as the row `[1, d]`. -/
def row128 (x : (⟨S128, .f32⟩ : BufTy).Contents (Elt Ideal)) : (⟨S1x128, .f32⟩ : BufTy).Contents (Elt Ideal) :=
  fun i => shapeCast S1x128 x shapeCasts_S128_S1x128 i
def row64 (x : (⟨S64, .f32⟩ : BufTy).Contents (Elt Ideal)) : (⟨S1x64, .f32⟩ : BufTy).Contents (Elt Ideal) :=
  fun i => shapeCast S1x64 x shapeCasts_S64_S1x64 i

variable (m : (ℓ : Loc nD τ sig) → Buf (Elt Ideal) ℓ) (ρ : Dev nD → PrngReg)

/-- A buffer that no operation of a stretch writes is found as it was. -/
macro "not_written" ops:ident : tactic =>
  `(tactic| (refine StableHlo.after_of_forall_not_mem _ _ (List.forall_iff_forall_mem.mp ?_)
             simp only [$ops:ident, List.Forall, StableHlo.nullary_writes, StableHlo.unary_writes, StableHlo.binary_writes,
               StableHlo.ternary_writes, StableHlo.quaternary_writes, StableHlo.reshape_writes, StableHlo.binaryIndexed_writes,
               Finset.mem_singleton]
             repeat' apply And.intro
             all_goals exact StableHlo.devRef_ne_of_ne (by decide)))

/-! ## After the first stretch (region 0's entry) -/

set_option maxHeartbeats 2000000 in
theorem W1_v1 (c : Dev nD) : W1 m ρ c (Proc.devRef .tc main_v1) = srcK (m ((c : Thread nD τ).loc main_arg1)) := by
  dsimp only [W1, hostOps0]; after_results_simp; rfl
set_option maxHeartbeats 2000000 in
theorem W1_v3 (c : Dev nD) : W1 m ρ c (Proc.devRef .tc main_v3) = dstK (m ((c : Thread nD τ).loc main_arg1)) := by
  dsimp only [W1, hostOps0]; after_results_simp; rfl
set_option maxHeartbeats 2000000 in
theorem W1_v9 (c : Dev nD) : W1 m ρ c (Proc.devRef .tc main_v9) = cntK (dstK (m ((c : Thread nD τ).loc main_arg1))) := by
  dsimp only [W1, hostOps0]; after_results_simp; rfl
set_option maxHeartbeats 2000000 in
theorem W1_v22 (c : Dev nD) : W1 m ρ c (Proc.devRef .tc main_v22)
    = aggK (m ((c : Thread nD τ).loc main_arg0)) (srcK (m ((c : Thread nD τ).loc main_arg1)))
        (dstK (m ((c : Thread nD τ).loc main_arg1))) (cntK (dstK (m ((c : Thread nD τ).loc main_arg1)))) := by
  dsimp only [W1, hostOps0]; after_results_simp; rfl
set_option maxHeartbeats 2000000 in
theorem W1_v23 (c : Dev nD) : W1 m ρ c (Proc.devRef .tc main_v23) = row128 (m ((c : Thread nD τ).loc main_arg4)) := by
  dsimp only [W1, hostOps0]; after_results_simp; rfl
set_option maxHeartbeats 2000000 in
theorem W1_v24 (c : Dev nD) : W1 m ρ c (Proc.devRef .tc main_v24) = row128 (m ((c : Thread nD τ).loc main_arg11)) := by
  dsimp only [W1, hostOps0]; after_results_simp; rfl
set_option maxHeartbeats 2000000 in
theorem W1_v25 (c : Dev nD) : W1 m ρ c (Proc.devRef .tc main_v25) = row128 (m ((c : Thread nD τ).loc main_arg12)) := by
  dsimp only [W1, hostOps0]; after_results_simp; rfl

theorem W1_arg0 (c : Dev nD) : W1 m ρ c (Proc.devRef .tc main_arg0) = m ((c : Thread nD τ).loc main_arg0) := by
  show StableHlo.after hostOps0 (W0 m ρ c) (Proc.devRef .tc main_arg0) = W0 m ρ c (Proc.devRef .tc main_arg0); not_written hostOps0
theorem W1_arg2 (c : Dev nD) : W1 m ρ c (Proc.devRef .tc main_arg2) = m ((c : Thread nD τ).loc main_arg2) := by
  show StableHlo.after hostOps0 (W0 m ρ c) (Proc.devRef .tc main_arg2) = W0 m ρ c (Proc.devRef .tc main_arg2); not_written hostOps0
theorem W1_arg3 (c : Dev nD) : W1 m ρ c (Proc.devRef .tc main_arg3) = m ((c : Thread nD τ).loc main_arg3) := by
  show StableHlo.after hostOps0 (W0 m ρ c) (Proc.devRef .tc main_arg3) = W0 m ρ c (Proc.devRef .tc main_arg3); not_written hostOps0
theorem W1_arg5 (c : Dev nD) : W1 m ρ c (Proc.devRef .tc main_arg5) = m ((c : Thread nD τ).loc main_arg5) := by
  show StableHlo.after hostOps0 (W0 m ρ c) (Proc.devRef .tc main_arg5) = W0 m ρ c (Proc.devRef .tc main_arg5); not_written hostOps0
theorem W1_arg6 (c : Dev nD) : W1 m ρ c (Proc.devRef .tc main_arg6) = m ((c : Thread nD τ).loc main_arg6) := by
  show StableHlo.after hostOps0 (W0 m ρ c) (Proc.devRef .tc main_arg6) = W0 m ρ c (Proc.devRef .tc main_arg6); not_written hostOps0
theorem W1_arg7 (c : Dev nD) : W1 m ρ c (Proc.devRef .tc main_arg7) = m ((c : Thread nD τ).loc main_arg7) := by
  show StableHlo.after hostOps0 (W0 m ρ c) (Proc.devRef .tc main_arg7) = W0 m ρ c (Proc.devRef .tc main_arg7); not_written hostOps0
theorem W1_arg8 (c : Dev nD) : W1 m ρ c (Proc.devRef .tc main_arg8) = m ((c : Thread nD τ).loc main_arg8) := by
  show StableHlo.after hostOps0 (W0 m ρ c) (Proc.devRef .tc main_arg8) = W0 m ρ c (Proc.devRef .tc main_arg8); not_written hostOps0
theorem W1_arg9 (c : Dev nD) : W1 m ρ c (Proc.devRef .tc main_arg9) = m ((c : Thread nD τ).loc main_arg9) := by
  show StableHlo.after hostOps0 (W0 m ρ c) (Proc.devRef .tc main_arg9) = W0 m ρ c (Proc.devRef .tc main_arg9); not_written hostOps0
theorem W1_arg10 (c : Dev nD) : W1 m ρ c (Proc.devRef .tc main_arg10) = m ((c : Thread nD τ).loc main_arg10) := by
  show StableHlo.after hostOps0 (W0 m ρ c) (Proc.devRef .tc main_arg10) = W0 m ρ c (Proc.devRef .tc main_arg10); not_written hostOps0
theorem W1_arg11 (c : Dev nD) : W1 m ρ c (Proc.devRef .tc main_arg11) = m ((c : Thread nD τ).loc main_arg11) := by
  show StableHlo.after hostOps0 (W0 m ρ c) (Proc.devRef .tc main_arg11) = W0 m ρ c (Proc.devRef .tc main_arg11); not_written hostOps0
theorem W1_arg12 (c : Dev nD) : W1 m ρ c (Proc.devRef .tc main_arg12) = m ((c : Thread nD τ).loc main_arg12) := by
  show StableHlo.after hostOps0 (W0 m ρ c) (Proc.devRef .tc main_arg12) = W0 m ρ c (Proc.devRef .tc main_arg12); not_written hostOps0

/-! ## After the second stretch (region 1's entry), from region 0's exit contents -/

set_option maxHeartbeats 2000000 in
theorem W3_v39 (c : Dev nD) : W3 m ρ c (Proc.devRef .tc main_v39)
    = aggK (W2 m ρ c (Proc.devRef .tc main_v26)) (W2 m ρ c (Proc.devRef .tc main_v1))
        (W2 m ρ c (Proc.devRef .tc main_v3)) (W2 m ρ c (Proc.devRef .tc main_v9)) := by
  dsimp only [W3, hostOps1]; after_results_simp; rfl
set_option maxHeartbeats 2000000 in
theorem W3_v40 (c : Dev nD) : W3 m ρ c (Proc.devRef .tc main_v40) = row128 (W2 m ρ c (Proc.devRef .tc main_arg7)) := by
  dsimp only [W3, hostOps1]; after_results_simp; rfl
set_option maxHeartbeats 2000000 in
theorem W3_v41 (c : Dev nD) : W3 m ρ c (Proc.devRef .tc main_v41) = row128 (W2 m ρ c (Proc.devRef .tc main_arg11)) := by
  dsimp only [W3, hostOps1]; after_results_simp; rfl
set_option maxHeartbeats 2000000 in
theorem W3_v42 (c : Dev nD) : W3 m ρ c (Proc.devRef .tc main_v42) = row128 (W2 m ρ c (Proc.devRef .tc main_arg12)) := by
  dsimp only [W3, hostOps1]; after_results_simp; rfl

theorem W3_keep (c : Dev nD) :
    W3 m ρ c (Proc.devRef .tc main_v26) = W2 m ρ c (Proc.devRef .tc main_v26)
    ∧ W3 m ρ c (Proc.devRef .tc main_arg5) = W2 m ρ c (Proc.devRef .tc main_arg5)
    ∧ W3 m ρ c (Proc.devRef .tc main_arg6) = W2 m ρ c (Proc.devRef .tc main_arg6)
    ∧ W3 m ρ c (Proc.devRef .tc main_v1) = W2 m ρ c (Proc.devRef .tc main_v1)
    ∧ W3 m ρ c (Proc.devRef .tc main_v3) = W2 m ρ c (Proc.devRef .tc main_v3)
    ∧ W3 m ρ c (Proc.devRef .tc main_v9) = W2 m ρ c (Proc.devRef .tc main_v9)
    ∧ W3 m ρ c (Proc.devRef .tc main_arg8) = W2 m ρ c (Proc.devRef .tc main_arg8)
    ∧ W3 m ρ c (Proc.devRef .tc main_arg9) = W2 m ρ c (Proc.devRef .tc main_arg9)
    ∧ W3 m ρ c (Proc.devRef .tc main_arg10) = W2 m ρ c (Proc.devRef .tc main_arg10) := by
  refine ⟨?_, ?_, ?_, ?_, ?_, ?_, ?_, ?_, ?_⟩ <;>
    (show StableHlo.after hostOps1 (W2 m ρ c) _ = _; not_written hostOps1)

/-! ## After the third stretch (region 2's entry), from region 1's exit contents -/

set_option maxHeartbeats 2000000 in
theorem W5_v56 (c : Dev nD) : W5 m ρ c (Proc.devRef .tc main_v56)
    = aggK (W4 m ρ c (Proc.devRef .tc main_v43)) (W4 m ρ c (Proc.devRef .tc main_v1))
        (W4 m ρ c (Proc.devRef .tc main_v3)) (W4 m ρ c (Proc.devRef .tc main_v9)) := by
  dsimp only [W5, hostOps2]; after_results_simp; rfl
set_option maxHeartbeats 2000000 in
theorem W5_v57 (c : Dev nD) : W5 m ρ c (Proc.devRef .tc main_v57) = row64 (W4 m ρ c (Proc.devRef .tc main_arg10)) := by
  dsimp only [W5, hostOps2]; after_results_simp; rfl

theorem W5_keep (c : Dev nD) :
    W5 m ρ c (Proc.devRef .tc main_v43) = W4 m ρ c (Proc.devRef .tc main_v43)
    ∧ W5 m ρ c (Proc.devRef .tc main_arg8) = W4 m ρ c (Proc.devRef .tc main_arg8)
    ∧ W5 m ρ c (Proc.devRef .tc main_arg9) = W4 m ρ c (Proc.devRef .tc main_arg9) := by
  refine ⟨?_, ?_, ?_⟩ <;>
    (show StableHlo.after hostOps2 (W4 m ρ c) _ = _; not_written hostOps2)

end Cert.KernelIdeal.HostRead

end
-- ==== Proof.Spec.lean ====
/-
  One layer of the graph network, as a function of whole arrays.

  A layer takes the neighbourhood means `agg` and the node features `x` (both one row per node), two weight
  matrices and a bias, and forms at node `r` and output feature `q`

      lin r q = (∑ k, agg (r, k) · Wl (k, q) + ∑ k, x (r, k) · Wr (k, q)) + b q.

  The first two layers then normalise each node's row: with `μ` the row's mean and `σ²` the mean of the squared
  deviations, the entry becomes `max (((lin − μ) · rsqrt (σ² + ε)) · γ q + β q) 0`.  Everything is over the
  extended reals; the two float literals (128 and ε) stay as their bit patterns, and `0` is the zero pattern's value.
  The sums may be regrouped freely (addition of extended reals is commutative and associative): the one law used
  against the other program is `(A + B) + b = (A + b) + B`.
-/
import Idealize.ShloMosaic.PureOps.Ideal.Laws
import Idealize.ShloMosaic.Lib.ValueIdx

noncomputable section

namespace Cert.Sage

open Idealize.ShloMosaic Idealize.ShloMosaic.ValueIdx

/-- The affine part at one entry, from the two rows and the two weight columns. -/
def lin {K : ℕ} (a x wl wr : Fin K → EReal) (b : EReal) : EReal :=
  (∑ k, a k * wl k + ∑ k, x k * wr k) + b

/-- The same with the bias added before the second product (the other program's grouping). -/
theorem lin_regroup {K : ℕ} (a x wl wr : Fin K → EReal) (b : EReal) :
    (∑ k, a k * wl k + b) + ∑ k, x k * wr k = lin a x wl wr b := by
  unfold lin
  exact add_right_comm _ _ _

/-- The mean of a row of 128 entries: its sum divided by the literal 128. -/
def mean128 (h : Fin 128 → EReal) : EReal :=
  Ideal.div (∑ q, h q) (Ideal.ofBits .f32 0x43000000#32)

/-- Row normalisation, scale, shift and the positive part, at entry `q` of a row `h`. -/
def lnrelu (h g be : Fin 128 → EReal) (q : Fin 128) : EReal :=
  max (((h q - mean128 h) * Ideal.rsqrt (mean128 (fun r => (h r - mean128 h) * (h r - mean128 h))
    + Ideal.ofBits .f32 0x3727C5AC#32)) * g q + be q) (Ideal.ofBits .f32 0x00000000#32)

/-- The affine part of a layer as a whole array `[N, d]`, from `agg, x : [N, K]` and `Wl, Wr : [K, d]`. -/
def dense {N K d : ℕ} (agg x : (⟨2, ![N, K]⟩ : Shape).Idx → EReal) (Wl Wr : (⟨2, ![K, d]⟩ : Shape).Idx → EReal)
    (b : Fin d → EReal) : (⟨2, ![N, d]⟩ : Shape).Idx → EReal :=
  fun i => lin (fun k => agg (ix2 (i 0) k)) (fun k => x (ix2 (i 0) k)) (fun k => Wl (ix2 k (i 1)))
    (fun k => Wr (ix2 k (i 1))) (b (i 1))

/-- A normalised layer as a whole array `[N, 128]`. -/
def denseLN {N K : ℕ} (agg x : (⟨2, ![N, K]⟩ : Shape).Idx → EReal) (Wl Wr : (⟨2, ![K, 128]⟩ : Shape).Idx → EReal)
    (b g be : Fin 128 → EReal) : (⟨2, ![N, 128]⟩ : Shape).Idx → EReal :=
  fun i => lnrelu (fun q => dense agg x Wl Wr b (ix2 (i 0) q)) g be (i 1)

end Cert.Sage

end
-- ==== Proof.LibMatmul.lean ====
/-
  A rank-2 matrix product read at an index, at the exact extended reals: when the dimension numbers contract the
  left operand's column axis with the right operand's row axis and keep the other two axes in order, the product
  accumulated into zeros is, at row `p` and column `q`, the sum over `k` of `lhs (p, k) · rhs (k, q)` — a sum over
  the contracted extent itself, not over the contraction's own index type.
-/
import Idealize.ShloMosaic.PureOps.Ideal.Laws
import Idealize.ShloMosaic.Lib.ValueIdx

noncomputable section

namespace Cert.LibMatmul

open Idealize.ShloMosaic Idealize.ShloMosaic.ValueIdx

/-- A product `[a, K] × [K, b] → [a, b]` into a zero accumulator, at an output index `j`: the four coordinate facts
    say which operand entries the dimension numbers pair at the contraction index (the left one at `(j 0, k)`, the
    right one at `(k, j 1)`); the contraction has one axis, of extent `K`, and the sum is re-indexed along it. -/
theorem matmul_zero_ix2 {a K b : Nat} {φ₁ φ₂ : FTy}
    (d : DotDims ⟨2, ![a, K]⟩ ⟨2, ![K, b]⟩ ⟨2, ![a, b]⟩) (prec : Option ContractPrecision)
    (hr : d.contr.rank = 1) (hs : d.contr.size ⟨0, by omega⟩ = K)
    (hl0 : ∀ j q, (d.lhsIdx j q 0).val = (j 0).val)
    (hl1 : ∀ j q, (d.lhsIdx j q 1).val = (q ⟨0, by omega⟩).val)
    (hr0 : ∀ j q, (d.rhsIdx j q 0).val = (q ⟨0, by omega⟩).val)
    (hr1 : ∀ j q, (d.rhsIdx j q 1).val = (j 1).val)
    (lhs : FVec Ideal ⟨2, ![a, K]⟩ φ₁) (rhs : FVec Ideal ⟨2, ![K, b]⟩ φ₂) (j : (⟨2, ![a, b]⟩ : Shape).Idx) :
    FloatOps.matmul d prec lhs rhs (constant ⟨2, ![a, b]⟩ .f32 0x00000000#32) j
      = ∑ k : Fin K, lhs (ix2 (j 0) k) * rhs (ix2 k (j 1)) := by
  rw [Ideal.matmul_constant_zero_apply, ← Equiv.sum_comp (contrEquiv1 d K hr hs).symm]
  refine Finset.sum_congr rfl fun k _ => ?_
  have hk := contrEquiv1_symm_val d K hr hs k
  have el : d.lhsIdx j ((contrEquiv1 d K hr hs).symm k) = ix2 (j 0) k := funext fun x => Fin.ext (by
    match x with
    | ⟨0, _⟩ => exact hl0 _ _
    | ⟨1, _⟩ => exact (hl1 _ _).trans hk)
  have er : d.rhsIdx j ((contrEquiv1 d K hr hs).symm k) = ix2 k (j 1) := funext fun x => Fin.ext (by
    match x with
    | ⟨0, _⟩ => exact (hr0 _ _).trans hk
    | ⟨1, _⟩ => exact hr1 _ _)
  rw [el, er]
  rfl

end Cert.LibMatmul

end
-- ==== Proof.LibRowSum.lean ====
/-
  A sum along the last axis of a matrix, read at a row.

  For x of shape [a, b], the kernel's lane reduction with neutral accumulator and the host's reduce with initial value
  init, both along axis 1, read at row p are the finite sum over k : Fin b of x (p, k) (the host's with init added in
  front): the source index over row p with coordinate k on the dropped axis is (p, k).
-/
import Idealize.ShloMosaic.PureOps.Ideal.Laws
import Idealize.ShloMosaic.Lib.ValueIdx

noncomputable section

namespace Cert.LibRowSum

open Idealize.ShloMosaic Idealize.ShloMosaic.ValueIdx

/-- Over row p of an [a, b] matrix, the source index with coordinate k on axis 1 is (p, k). -/
theorem lift_row {a b : ℕ} (h : (⟨2, ![a, b]⟩ : Shape).Reduces [1] ⟨1, ![a]⟩) (p : Fin a) (k : Fin b) :
    h.lift (ix1 p) k = ix2 p k := by
  funext c
  match c with
  | ⟨0, _⟩ => exact Fin.ext rfl
  | ⟨1, _⟩ => exact Fin.ext rfl

/-- The kernel's lane sum of an [a, b] matrix at row p is the sum of the row's entries. -/
theorem multiReduction_add_row {φ : FTy} {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (lift_row h p k))

/-- The host's sum of an [a, b] matrix along axis 1 at row p is the initial value plus the sum of the row's entries. -/
theorem hostReduceAdd_row {a b : ℕ} (h' : (⟨2, ![a, b]⟩ : Shape).ReducesTo [1] ⟨1, ![a]⟩)
    (h : (⟨2, ![a, b]⟩ : Shape).Reduces [1] ⟨1, ![a]⟩) (x : (⟨2, ![a, b]⟩ : Shape).Idx → EReal) (init : EReal) (p : Fin a) :
    Ideal.hostReduceAdd h' x init (ix1 p) = init + ∑ k : Fin b, x (ix2 p k) :=
  (Ideal.hostReduceAdd_single h' h x init (ix1 p)).trans
    (congrArg (init + ·) (Finset.sum_congr rfl fun k _ => congrArg x (lift_row h p k)))

end Cert.LibRowSum

end
-- ==== Proof.LibBcastCol.lean ====
/-
  A column spread along the rows: an array `[a, 1]` broadcast to `[a, b]` reads, at `(p, q)`, the column's entry `p`,
  whatever `q` is — the broadcast repeats the column's one entry per row along the second axis (and when `a = 1` the
  first axis is a unit axis too, where the only coordinate is `0`).
-/
import Idealize.ShloMosaic.Lib.Pipeline.Value
import Idealize.ShloMosaic.Lib.ValueIdx

namespace Cert.LibBcastCol

open Idealize.ShloMosaic Idealize.ShloMosaic.ValueIdx

/-- A column `[a, 1]` broadcast to `[a, b]` reads, at `(p, q)`, the column's entry `p`. -/
theorem bcastCol {α : Type} {a b : ℕ} (x : (⟨2, ![a, 1]⟩ : Shape).Idx → α) (h : (⟨2, ![a, 1]⟩ : Shape).Broadcasts ⟨2, ![a, b]⟩)
    (p : Fin a) (q : Fin b) : broadcastTo ⟨2, ![a, b]⟩ x h (ix2 p q) = x (ix2 p 0) :=
  broadcastTo_apply x h _ _ fun c => by
    match c with
    | ⟨0, _⟩ =>
      show p.val = if a = 1 then 0 else p.val
      split
      · omega
      · rfl
    | ⟨1, _⟩ => rfl

end Cert.LibBcastCol
-- ==== Proof.LibBcastRow.lean ====
/-
  A row spread down the rows: an array `[1, b]` broadcast to `[a, b]` reads, at `(p, q)`, the row's entry `q`,
  whatever `p` is; and a vector `[b]` cast to the row `[1, b]` reads, at `(u, q)`, the vector's entry `q`.
-/
import Idealize.ShloMosaic.Lib.Pipeline.Value
import Idealize.ShloMosaic.Lib.ValueIdx

namespace Cert.LibBcastRow

open Idealize.ShloMosaic Idealize.ShloMosaic.ValueIdx

/-- A row `[1, b]` broadcast to `[a, b]` reads, at `(p, q)`, the row's entry `q`. -/
theorem bcastRow {α : Type} {a b : ℕ} (x : (⟨2, ![1, b]⟩ : Shape).Idx → α) (h : (⟨2, ![1, b]⟩ : Shape).Broadcasts ⟨2, ![a, b]⟩)
    (p : Fin a) (q : Fin b) : broadcastTo ⟨2, ![a, b]⟩ x h (ix2 p q) = x (ix2 (0 : Fin 1) q) :=
  broadcastTo_apply x h _ _ fun c => by
    match c with
    | ⟨0, _⟩ => rfl
    | ⟨1, _⟩ =>
      show q.val = if b = 1 then 0 else q.val
      split
      · omega
      · rfl

/-- A vector `[b]` cast to the row `[1, b]` reads, at `(u, q)`, the vector's entry `q`. -/
theorem shapeCast_b_1b_apply {α : Type} {b : ℕ} (x : (⟨1, ![b]⟩ : Shape).Idx → α)
    (h : (⟨1, ![b]⟩ : Shape).ShapeCasts ⟨2, ![1, b]⟩) (u : Fin 1) (q : Fin b) :
    shapeCast ⟨2, ![1, b]⟩ x h (ix2 u q) = x (ix1 q) :=
  shapeCast_apply x h _ _ (by
    have hu : u.val = 0 := by omega
    rw [Shape.rowMajor_val_two, Shape.rowMajor_val_one]
    show q.val = u.val * b + q.val
    rw [hu, Nat.zero_mul, Nat.zero_add])

end Cert.LibBcastRow
-- ==== Proof.LibUnitAxis.lean ====
/-
  A vector laid out as a column: a shape cast `[a] → [a, 1]` read at `(i, u)` is the vector's entry `i`,
  whatever the unit coordinate `u` (both sit at row-major position `i`).
-/
import Idealize.ShloMosaic.Lib.ValueIdx
import Idealize.ShloMosaic.Lib.Pipeline.Value

namespace Cert.Lib.UnitAxis

open Idealize.ShloMosaic Idealize.ShloMosaic.ValueIdx

/-- An `[a]` array cast to `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Cert.Lib.UnitAxis
-- ==== Proof.KPay.lean ====
/-
  The three kernel bodies read at one entry.

  Each body loads a block of 5000 node rows of the neighbourhood means and of the features, the two weight matrices
  and the bias row, and stores, at row `p` and column `q` of the block, the layer's value there (module `Spec`):
  the two products accumulate into zeros, so each is the plain sum over the 128 contracted positions; rounding the
  operands to the short format is the identity on exact values; the row mean is the lane sum of the row divided by
  128; a column [5000, 1] spread over the row repeats its entry; a row [1, 128] spread down the rows repeats its
  entry per column.
-/
import proofs.«101974_j3762391351459_1_alg».proof.Proof.Gen.KernelIdeal.Skeleton
import proofs.«101974_j3762391351459_1_alg».proof.Proof.Spec
import proofs.«101974_j3762391351459_1_alg».proof.Proof.LibMatmul
import proofs.«101974_j3762391351459_1_alg».proof.Proof.LibRowSum
import proofs.«101974_j3762391351459_1_alg».proof.Proof.LibBcastCol
import proofs.«101974_j3762391351459_1_alg».proof.Proof.LibBcastRow
import proofs.«101974_j3762391351459_1_alg».proof.Proof.LibUnitAxis
import Idealize.ShloMosaic.Lib.Pipeline.Value

noncomputable section

namespace Cert.KernelIdeal.Pay

open Cert.KernelIdeal Cert.KernelIdeal.Gen Idealize.ShloMosaic Idealize.ShloMosaic.ValueIdx

/-! ## The affine part -/

/-- Two products into zeros, added, plus a bias row spread down the rows: at `(p, q)` the affine part of the layer
    from row `p` of the two left operands and column `q` of the two right ones. -/
theorem affine_apply {d : ℕ} (D : DotDims ⟨2, ![5000, 128]⟩ ⟨2, ![128, d]⟩ ⟨2, ![5000, d]⟩)
    (hr : D.contr.rank = 1) (hs : D.contr.size ⟨0, by omega⟩ = 128)
    (hl0 : ∀ j q, (D.lhsIdx j q 0).val = (j 0).val)
    (hl1 : ∀ j q, (D.lhsIdx j q 1).val = (q ⟨0, by omega⟩).val)
    (hr0 : ∀ j q, (D.rhsIdx j q 0).val = (q ⟨0, by omega⟩).val)
    (hr1 : ∀ j q, (D.rhsIdx j q 1).val = (j 1).val)
    (a x : FVec Ideal ⟨2, ![5000, 128]⟩ .bf16) (wl wr : FVec Ideal ⟨2, ![128, d]⟩ .bf16)
    (b : FVec Ideal ⟨2, ![1, d]⟩ .f32) (hb : (⟨2, ![1, d]⟩ : Shape).Broadcasts ⟨2, ![5000, d]⟩)
    (p : Fin 5000) (q : Fin d) :
    addf (addf (matmul D none a wl (constant ⟨2, ![5000, d]⟩ .f32 0x00000000#32))
        (matmul D none x wr (constant ⟨2, ![5000, d]⟩ .f32 0x00000000#32)))
      (broadcastTo ⟨2, ![5000, d]⟩ b hb) (ix2 p q)
    = Sage.lin (fun k => a (ix2 p k)) (fun k => x (ix2 p k)) (fun k => wl (ix2 k q)) (fun k => wr (ix2 k q))
        (b (ix2 (0 : Fin 1) q)) := by
  rw [addf_apply, addf_apply]
  refine congrArg₂ (· + ·) (congrArg₂ (· + ·) ?_ ?_) ?_
  · exact LibMatmul.matmul_zero_ix2 D none hr hs hl0 hl1 hr0 hr1 a wl (ix2 p q)
  · exact LibMatmul.matmul_zero_ix2 D none hr hs hl0 hl1 hr0 hr1 x wr (ix2 p q)
  · exact LibBcastRow.bcastRow b hb p q

/-! ## The row statistics -/

/-- The row mean as a column: the lane sum of each row, laid out as [5000, 1], divided by 128. -/
def meanCol (v : FVec Ideal S5000x128 .f32) : FVec Ideal S5000x1 .f32 :=
  divf (shapeCast S5000x1 (multiReduction .add [1] S5000 v 0x00000000#32 reduces_S5000x128_S5000 (.inl rfl) rfl)
    shapeCasts_S5000_S5000x1) (broadcast S5000x1 (Scalar.ofBits .f32 0x43000000#32))

theorem meanCol_apply (v : FVec Ideal S5000x128 .f32) (p : Fin 5000) (u : Fin 1) :
    meanCol v (ix2 p u) = Sage.mean128 (fun k => v (ix2 p k)) := by
  unfold meanCol
  rw [divf_apply]
  refine congrArg₂ Ideal.div ?_ rfl
  exact (Lib.UnitAxis.shapeCast_a_a1_apply _ shapeCasts_S5000_S5000x1 p u).trans
    (LibRowSum.multiReduction_add_row v 0x00000000#32 reduces_S5000x128_S5000 (.inl rfl) rfl p)

/-- A row minus its mean. -/
def centered (v : FVec Ideal S5000x128 .f32) : FVec Ideal S5000x128 .f32 :=
  subf v (broadcastTo S5000x128 (meanCol v) broadcasts_S5000x1_S5000x128)

theorem centered_apply (v : FVec Ideal S5000x128 .f32) (p : Fin 5000) (q : Fin 128) :
    centered v (ix2 p q) = v (ix2 p q) - Sage.mean128 (fun k => v (ix2 p k)) := by
  unfold centered
  rw [subf_apply]
  refine congrArg₂ (· - ·) rfl ?_
  exact (LibBcastCol.bcastCol (meanCol v) broadcasts_S5000x1_S5000x128 p q).trans (meanCol_apply v p 0)

/-- The normalised and scaled row: centred, times the reciprocal root of the variance plus ε, times the scale row. -/
def normed (v : FVec Ideal S5000x128 .f32) (g : FVec Ideal S1x128 .f32) : FVec Ideal S5000x128 .f32 :=
  mulf (mulf (centered v) (broadcastTo S5000x128 (rsqrt (addf (meanCol (mulf (centered v) (centered v)))
    (broadcast S5000x1 (Scalar.ofBits .f32 0x3727C5AC#32)))) broadcasts_S5000x1_S5000x128))
    (broadcastTo S5000x128 g broadcasts_S1x128_S5000x128)

theorem normed_apply (v : FVec Ideal S5000x128 .f32) (g : FVec Ideal S1x128 .f32) (p : Fin 5000) (q : Fin 128) :
    normed v g (ix2 p q)
      = ((v (ix2 p q) - Sage.mean128 (fun k => v (ix2 p k)))
          * Ideal.rsqrt (Sage.mean128 (fun r => (v (ix2 p r) - Sage.mean128 (fun k => v (ix2 p k)))
              * (v (ix2 p r) - Sage.mean128 (fun k => v (ix2 p k)))) + Ideal.ofBits .f32 0x3727C5AC#32))
        * g (ix2 (0 : Fin 1) q) := by
  unfold normed
  rw [mulf_apply, mulf_apply]
  refine congrArg₂ (· * ·) (congrArg₂ (· * ·) (centered_apply v p q) ?_) (LibBcastRow.bcastRow g broadcasts_S1x128_S5000x128 p q)
  refine (LibBcastCol.bcastCol _ broadcasts_S5000x1_S5000x128 p q).trans ?_
  show Ideal.rsqrt (meanCol (mulf (centered v) (centered v)) (ix2 p 0) + Ideal.ofBits .f32 0x3727C5AC#32) = _
  rw [meanCol_apply]
  refine congrArg (fun z => Ideal.rsqrt (Sage.mean128 z + _)) (funext fun r => ?_)
  rw [mulf_apply, centered_apply]

/-- The last step of a normalised body: the shift row added, then the positive part. -/
theorem shift_relu_apply (v : FVec Ideal S5000x128 .f32) (be : FVec Ideal S1x128 .f32) (p : Fin 5000) (q : Fin 128) :
    maximumf (addf v (broadcastTo S5000x128 be broadcasts_S1x128_S5000x128))
      (broadcast S5000x128 (Scalar.ofBits .f32 0x00000000#32)) (ix2 p q)
    = max (v (ix2 p q) + be (ix2 (0 : Fin 1) q)) (Ideal.ofBits .f32 0x00000000#32) := by
  rw [maximumf_apply, addf_apply]
  refine congrArg₂ max (congrArg₂ (· + ·) rfl (LibBcastRow.bcastRow be broadcasts_S1x128_S5000x128 p q)) rfl

/-! ## The three bodies at an entry -/

/-- The affine part as the bodies spell it: both left operands and both weight matrices rounded to the short
    format (the identity on exact values), two products into zeros, the bias row spread down the rows. -/
def aff {d : ℕ} (D : DotDims ⟨2, ![5000, 128]⟩ ⟨2, ![128, d]⟩ ⟨2, ![5000, d]⟩)
    (x0 x1 : FVec Ideal ⟨2, ![5000, 128]⟩ .f32) (x2 x3 : FVec Ideal ⟨2, ![128, d]⟩ .f32)
    (x4 : FVec Ideal ⟨2, ![1, d]⟩ .f32) (hb : (⟨2, ![1, d]⟩ : Shape).Broadcasts ⟨2, ![5000, d]⟩) :
    FVec Ideal ⟨2, ![5000, d]⟩ .f32 :=
  addf (addf (matmul D none (truncf .bf16 x0 bitsLt_bf16_f32) (truncf .bf16 x2 bitsLt_bf16_f32)
        (constant ⟨2, ![5000, d]⟩ .f32 0x00000000#32))
      (matmul D none (truncf .bf16 x1 bitsLt_bf16_f32) (truncf .bf16 x3 bitsLt_bf16_f32)
        (constant ⟨2, ![5000, d]⟩ .f32 0x00000000#32)))
    (broadcastTo ⟨2, ![5000, d]⟩ x4 hb)

theorem aff_apply {d : ℕ} (D : DotDims ⟨2, ![5000, 128]⟩ ⟨2, ![128, d]⟩ ⟨2, ![5000, d]⟩)
    (hr : D.contr.rank = 1) (hs : D.contr.size ⟨0, by omega⟩ = 128)
    (hl0 : ∀ j q, (D.lhsIdx j q 0).val = (j 0).val)
    (hl1 : ∀ j q, (D.lhsIdx j q 1).val = (q ⟨0, by omega⟩).val)
    (hr0 : ∀ j q, (D.rhsIdx j q 0).val = (q ⟨0, by omega⟩).val)
    (hr1 : ∀ j q, (D.rhsIdx j q 1).val = (j 1).val)
    (x0 x1 : FVec Ideal ⟨2, ![5000, 128]⟩ .f32) (x2 x3 : FVec Ideal ⟨2, ![128, d]⟩ .f32)
    (x4 : FVec Ideal ⟨2, ![1, d]⟩ .f32) (hb : (⟨2, ![1, d]⟩ : Shape).Broadcasts ⟨2, ![5000, d]⟩)
    (p : Fin 5000) (q : Fin d) :
    aff D x0 x1 x2 x3 x4 hb (ix2 p q)
      = Sage.lin (fun k => x0 (ix2 p k)) (fun k => x1 (ix2 p k)) (fun k => x2 (ix2 k q)) (fun k => x3 (ix2 k q))
          (x4 (ix2 (0 : Fin 1) q)) :=
  affine_apply D hr hs hl0 hl1 hr0 hr1 (truncf .bf16 x0 bitsLt_bf16_f32) (truncf .bf16 x1 bitsLt_bf16_f32)
    (truncf .bf16 x2 bitsLt_bf16_f32) (truncf .bf16 x3 bitsLt_bf16_f32) x4 hb p q

/-- A normalised body's stored value from the affine part `v`: scale row `g`, shift row `be`. -/
theorem ln_tail_apply (v : FVec Ideal S5000x128 .f32) (g be : FVec Ideal S1x128 .f32) (p : Fin 5000) (q : Fin 128) :
    maximumf (addf (normed v g) (broadcastTo S5000x128 be broadcasts_S1x128_S5000x128))
      (broadcast S5000x128 (Scalar.ofBits .f32 0x00000000#32)) (ix2 p q)
    = Sage.lnrelu (fun r => v (ix2 p r)) (fun r => g (ix2 (0 : Fin 1) r)) (fun r => be (ix2 (0 : Fin 1) r)) q := by
  rw [shift_relu_apply, normed_apply]
  rfl

/-- Region 0's body at entry `(p, q)` of its block. -/
theorem pay0_apply (x0 x1 : FVec Ideal S5000x128 .f32) (x2 x3 : FVec Ideal S128x128 .f32) (x4 x5 x6 : FVec Ideal S1x128 .f32)
    (p : Fin 5000) (q : Fin 128) :
    k0_pay1 (F := Ideal) (k0_pay2 x0 x1 x2 x3 x4 x5) x6 (ix2 p q)
      = Sage.lnrelu (fun r => Sage.lin (fun k => x0 (ix2 p k)) (fun k => x1 (ix2 p k)) (fun k => x2 (ix2 k r))
            (fun k => x3 (ix2 k r)) (x4 (ix2 (0 : Fin 1) r)))
          (fun r => x5 (ix2 (0 : Fin 1) r)) (fun r => x6 (ix2 (0 : Fin 1) r)) q := by
  unfold k0_pay1 k0_pay2
  simp only [shapeCast_self]
  refine (ln_tail_apply (aff dot_S5000x128_S128x128_S5000x128_1_0_0_1_n_n x0 x1 x2 x3 x4 broadcasts_S1x128_S5000x128) x5 x6 p q).trans ?_
  refine congrArg (fun h => Sage.lnrelu h _ _ q) (funext fun r => ?_)
  exact aff_apply _ rfl rfl (fun _ _ => rfl) (fun _ _ => rfl) (fun _ _ => rfl) (fun _ _ => rfl) x0 x1 x2 x3 x4 _ p r

/-- Region 1's body at entry `(p, q)` of its block: the same layer. -/
theorem pay1_apply (x0 x1 : FVec Ideal S5000x128 .f32) (x2 x3 : FVec Ideal S128x128 .f32) (x4 x5 x6 : FVec Ideal S1x128 .f32)
    (p : Fin 5000) (q : Fin 128) :
    k1_pay1 (F := Ideal) (k1_pay2 x0 x1 x2 x3 x4 x5) x6 (ix2 p q)
      = Sage.lnrelu (fun r => Sage.lin (fun k => x0 (ix2 p k)) (fun k => x1 (ix2 p k)) (fun k => x2 (ix2 k r))
            (fun k => x3 (ix2 k r)) (x4 (ix2 (0 : Fin 1) r)))
          (fun r => x5 (ix2 (0 : Fin 1) r)) (fun r => x6 (ix2 (0 : Fin 1) r)) q := by
  unfold k1_pay1 k1_pay2
  simp only [shapeCast_self]
  refine (ln_tail_apply (aff dot_S5000x128_S128x128_S5000x128_1_0_0_1_n_n x0 x1 x2 x3 x4 broadcasts_S1x128_S5000x128) x5 x6 p q).trans ?_
  refine congrArg (fun h => Sage.lnrelu h _ _ q) (funext fun r => ?_)
  exact aff_apply _ rfl rfl (fun _ _ => rfl) (fun _ _ => rfl) (fun _ _ => rfl) (fun _ _ => rfl) x0 x1 x2 x3 x4 _ p r

/-- Region 2's body at entry `(p, q)` of its block: the affine part alone, 64 output features. -/
theorem pay2_apply (x0 x1 : FVec Ideal S5000x128 .f32) (x2 x3 : FVec Ideal S128x64 .f32) (x4 : FVec Ideal S1x64 .f32)
    (p : Fin 5000) (q : Fin 64) :
    k2_pay1 (F := Ideal) x0 x1 x2 x3 x4 (ix2 p q)
      = Sage.lin (fun k => x0 (ix2 p k)) (fun k => x1 (ix2 p k)) (fun k => x2 (ix2 k q)) (fun k => x3 (ix2 k q))
          (x4 (ix2 (0 : Fin 1) q)) := by
  unfold k2_pay1
  simp only [shapeCast_self]
  exact aff_apply dot_S5000x128_S128x64_S5000x64_1_0_0_1_n_n rfl rfl (fun _ _ => rfl) (fun _ _ => rfl) (fun _ _ => rfl)
    (fun _ _ => rfl) x0 x1 x2 x3 x4 broadcasts_S1x64_S5000x64 p q

end Cert.KernelIdeal.Pay

end
-- ==== Proof.KRegion0.lean ====
/-
  Region 0 (the first normalised layer) as a whole-array function.

  The region runs its body at eight grid points; point `t` reads rows 5000·t … 5000·t + 4999 of the neighbourhood
  means and of the features, the whole weight matrices and the three parameter rows, and writes back the same band
  of rows of the output.  So what point `t` writes is block `t` of ONE function of the arrays the region finds, the
  layer of module `Spec`; the eight bands tile the output array, which therefore ends holding that function.
-/
import proofs.«101974_j3762391351459_1_alg».proof.Proof.Gen.KernelIdeal.Frame
import proofs.«101974_j3762391351459_1_alg».proof.Proof.KPay
import Idealize.ShloMosaic.Lib.Pipeline.Value

set_option maxRecDepth 16384

noncomputable section

namespace Cert.KernelIdeal.Region0

open Cert.KernelIdeal Cert.KernelIdeal.Gen Idealize.ShloMosaic Idealize.ShloMosaic.ValueIdx Idealize.ShloMosaic.TcCoe
open Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 ∧ t.val < 8 :=
  (by decide +kernel : ∀ t : Fin grid0.N, _)

/-- The layer as a function of the arrays the region finds. -/
def G (c : Dev nD) : S40000x128.Idx → EReal :=
  Sage.denseLN (V c main_v22) (V c main_arg0) (V c main_arg2) (V c main_arg3)
    (fun q => V c main_v23 (ix2 (0 : Fin 1) q)) (fun q => V c main_v24 (ix2 (0 : Fin 1) q))
    (fun q => V c main_v25 (ix2 (0 : Fin 1) q))

theorem flushed_eq (c : Dev nD) (t : Fin cfg0.N) :
    (dat0 V c).flushed 7 t = ((cfg0.win 7).blk t).view.read (Elt Ideal) (G V c) := by
  show (cfg0.win 7).cut (grid0.coords t) ((dat0 V c).after 7 t) = _
  rw [after0_7]
  unfold out0_7
  rw [View.canon_unit_zero hz]
  simp only [View.ld_unit_zero (S := S5000x128) hz, View.ld_unit_zero (S := S128x128) hz, View.ld_unit_zero (S := S1x128) hz]
  funext j
  obtain ⟨e00, e01, e10, e11, e20, e21, e30, e31, e40, e41, e50, e51, e60, e61, e70, e71, ht⟩ := idx_facts t
  obtain ⟨p, q, rfl⟩ : ∃ (p : Fin 5000) (q : Fin 128), j = ix2 p q := ⟨j 0, j 1, eq_ix2 j⟩
  have hrow : t.val * 5000 + p.val < 40000 := by omega
  show k0_pay1 (F := Ideal) (k0_pay2 (iblk0 V c 0 t) (iblk0 V c 1 t) (iblk0 V c 2 t) (iblk0 V c 3 t) (iblk0 V c 4 t) (iblk0 V c 5 t))
      (iblk0 V c 6 t) (ix2 p q) = G V c (((cfg0.win 7).blk t).view.emb (ix2 p q))
  refine (Pay.pay0_apply (iblk0 V c 0 t) (iblk0 V c 1 t) (iblk0 V c 2 t) (iblk0 V c 3 t) (iblk0 V c 4 t) (iblk0 V c 5 t)
    (iblk0 V c 6 t) p q).trans ?_
  have e7 : ((cfg0.win 7).blk t).view.emb (ix2 p q) = ix2 (⟨t.val * 5000 + p.val, hrow⟩ : Fin 40000) q := by
    funext a; apply Fin.ext
    match a with
    | ⟨0, _⟩ => show win0_7.index t (0 : Fin 2) * 5000 + 1 * p.val = t.val * 5000 + p.val; omega
    | ⟨1, _⟩ => show win0_7.index t (1 : Fin 2) * 128 + 1 * q.val = q.val; omega
  have b0 : ∀ k : Fin 128, iblk0 V c 0 t (ix2 p k) = V c main_v22 (ix2 (⟨t.val * 5000 + p.val, hrow⟩ : Fin 40000) k) := fun k => by
    show V c main_v22 (((cfg0.win 0).blk t).view.emb (ix2 p k)) = _
    refine congrArg (V c main_v22) (funext fun a => Fin.ext ?_)
    match a with
    | ⟨0, _⟩ => show win0_0.index t (0 : Fin 2) * 5000 + 1 * p.val = t.val * 5000 + p.val; omega
    | ⟨1, _⟩ => show win0_0.index t (1 : Fin 2) * 128 + 1 * k.val = k.val; omega
  have b1 : ∀ k : Fin 128, iblk0 V c 1 t (ix2 p k) = V c main_arg0 (ix2 (⟨t.val * 5000 + p.val, hrow⟩ : Fin 40000) k) := fun k => by
    show V c main_arg0 (((cfg0.win 1).blk t).view.emb (ix2 p k)) = _
    refine congrArg (V c main_arg0) (funext fun a => Fin.ext ?_)
    match a with
    | ⟨0, _⟩ => show win0_1.index t (0 : Fin 2) * 5000 + 1 * p.val = t.val * 5000 + p.val; omega
    | ⟨1, _⟩ => show win0_1.index t (1 : Fin 2) * 128 + 1 * k.val = k.val; omega
  have b2 : ∀ (k r : Fin 128), iblk0 V c 2 t (ix2 k r) = V c main_arg2 (ix2 k r) := fun k r => by
    show V c main_arg2 (((cfg0.win 2).blk t).view.emb (ix2 k r)) = _
    refine congrArg (V c main_arg2) (funext fun a => Fin.ext ?_)
    match a with
    | ⟨0, _⟩ => show win0_2.index t (0 : Fin 2) * 128 + 1 * k.val = k.val; omega
    | ⟨1, _⟩ => show win0_2.index t (1 : Fin 2) * 128 + 1 * r.val = r.val; omega
  have b3 : ∀ (k r : Fin 128), iblk0 V c 3 t (ix2 k r) = V c main_arg3 (ix2 k r) := fun k r => by
    show V c main_arg3 (((cfg0.win 3).blk t).view.emb (ix2 k r)) = _
    refine congrArg (V c main_arg3) (funext fun a => Fin.ext ?_)
    match a with
    | ⟨0, _⟩ => show win0_3.index t (0 : Fin 2) * 128 + 1 * k.val = k.val; omega
    | ⟨1, _⟩ => show win0_3.index t (1 : Fin 2) * 128 + 1 * r.val = r.val; omega
  have b4 : ∀ (r : Fin 128), iblk0 V c 4 t (ix2 (0 : Fin 1) r) = V c main_v23 (ix2 (0 : Fin 1) r) := fun r => by
    show V c main_v23 (((cfg0.win 4).blk t).view.emb (ix2 (0 : Fin 1) r)) = _
    refine congrArg (V c main_v23) (funext fun a => Fin.ext ?_)
    match a with
    | ⟨0, _⟩ => show win0_4.index t (0 : Fin 2) * 1 + 1 * 0 = 0; omega
    | ⟨1, _⟩ => show win0_4.index t (1 : Fin 2) * 128 + 1 * r.val = r.val; omega
  have b5 : ∀ (r : Fin 128), iblk0 V c 5 t (ix2 (0 : Fin 1) r) = V c main_v24 (ix2 (0 : Fin 1) r) := fun r => by
    show V c main_v24 (((cfg0.win 5).blk t).view.emb (ix2 (0 : Fin 1) r)) = _
    refine congrArg (V c main_v24) (funext fun a => Fin.ext ?_)
    match a with
    | ⟨0, _⟩ => show win0_5.index t (0 : Fin 2) * 1 + 1 * 0 = 0; omega
    | ⟨1, _⟩ => show win0_5.index t (1 : Fin 2) * 128 + 1 * r.val = r.val; omega
  have b6 : ∀ (r : Fin 128), iblk0 V c 6 t (ix2 (0 : Fin 1) r) = V c main_v25 (ix2 (0 : Fin 1) r) := fun r => by
    show V c main_v25 (((cfg0.win 6).blk t).view.emb (ix2 (0 : Fin 1) r)) = _
    refine congrArg (V c main_v25) (funext fun a => Fin.ext ?_)
    match a with
    | ⟨0, _⟩ => show win0_6.index t (0 : Fin 2) * 1 + 1 * 0 = 0; omega
    | ⟨1, _⟩ => show win0_6.index t (1 : Fin 2) * 128 + 1 * r.val = r.val; omega
  rw [e7]
  simp only [b0, b1, b2, b3, b4, b5, b6]
  rfl

/-- An index of the output array is in point `t`'s block iff each coordinate is in the block's range on its axis. -/
theorem mem_blk (t : Fin cfg0.N) (i : S40000x128.Idx) :
    i ∈ ((cfg0.win 7).blk t).view.set ↔ ∀ a : Fin 2, win0_7.index t a * S5000x128.size a ≤ (i a).val
      ∧ (i a).val < win0_7.index t a * S5000x128.size a + S5000x128.size a := by
  show i ∈ ((View.whole main_v26).slice (win0_7.rect t)).set ↔ _
  rw [View.set_slice_whole, Rect.mem_set_unit]
  exact Iff.rfl

/-- Every band of 5000 rows is some point's block. -/
theorem idx_onto : ∀ (q0 : Fin 8), ∃ t : Fin cfg0.N, win0_7.index t = ![q0.val, 0] :=
  (by decide +kernel : ∀ (q0 : Fin 8), ∃ t : Fin grid0.N, win0_7.index t = ![q0.val, 0])

/-- The eight blocks of 5000 rows tile the 40000 rows: row `r` is in the block of point `r / 5000`. -/
theorem cover (i : S40000x128.Idx) :
    ∃ t : Fin cfg0.N, (cfg0.win 7).flush t = true ∧ i ∈ ((cfg0.win 7).blk t).view.set := by
  have hi0 : (i 0).val < 40000 := (i 0).isLt
  have hi1 : (i 1).val < 128 := (i 1).isLt
  obtain ⟨t, ht⟩ := idx_onto ⟨(i 0).val / 5000, by omega⟩
  have q0 : win0_7.index t (0 : Fin 2) = (i 0).val / 5000 := congrFun ht 0
  have q1 : win0_7.index t (1 : Fin 2) = 0 := congrFun ht 1
  refine ⟨t, flush0_7 t, ?_⟩
  rw [mem_blk]
  intro a
  match a with
  | ⟨0, _⟩ => show win0_7.index t (0 : Fin 2) * 5000 ≤ (i 0).val ∧ (i 0).val < win0_7.index t (0 : Fin 2) * 5000 + 5000; omega
  | ⟨1, _⟩ => show win0_7.index t (1 : Fin 2) * 128 ≤ (i 1).val ∧ (i 1).val < win0_7.index t (1 : Fin 2) * 128 + 128; omega

/-- The output array after the region: the layer of the arrays the region found. -/
theorem final (c : Dev nD) : (dat0 V c).arrAt 7 cfg0.N = G V c :=
  (dat0 V c).arrAt_eq_of_cover 7 (G V c) (fun t _ => flushed_eq V c t) cover

end Cert.KernelIdeal.Region0

end
-- ==== Proof.KRegion1.lean ====
/-
  Region 1 (the second normalised layer) as a whole-array function.

  The region runs its body at eight grid points; point `t` reads rows 5000·t … 5000·t + 4999 of the neighbourhood
  means and of the features, the whole weight matrices and the three parameter rows, and writes back the same band
  of rows of the output.  So what point `t` writes is block `t` of ONE function of the arrays the region finds, the
  layer of module `Spec`; the eight bands tile the output array, which therefore ends holding that function.
-/
import proofs.«101974_j3762391351459_1_alg».proof.Proof.Gen.KernelIdeal.Frame
import proofs.«101974_j3762391351459_1_alg».proof.Proof.KPay
import Idealize.ShloMosaic.Lib.Pipeline.Value

set_option maxRecDepth 16384

noncomputable section

namespace Cert.KernelIdeal.Region1

open Cert.KernelIdeal Cert.KernelIdeal.Gen Idealize.ShloMosaic Idealize.ShloMosaic.ValueIdx Idealize.ShloMosaic.TcCoe
open Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 ∧ t.val < 8 :=
  (by decide +kernel : ∀ t : Fin grid1.N, _)

/-- The layer as a function of the arrays the region finds. -/
def G (c : Dev nD) : S40000x128.Idx → EReal :=
  Sage.denseLN (V c main_v39) (V c main_v26) (V c main_arg5) (V c main_arg6)
    (fun q => V c main_v40 (ix2 (0 : Fin 1) q)) (fun q => V c main_v41 (ix2 (0 : Fin 1) q))
    (fun q => V c main_v42 (ix2 (0 : Fin 1) q))

theorem flushed_eq (c : Dev nD) (t : Fin cfg1.N) :
    (dat1 V c).flushed 7 t = ((cfg1.win 7).blk t).view.read (Elt Ideal) (G V c) := by
  show (cfg1.win 7).cut (grid1.coords t) ((dat1 V c).after 7 t) = _
  rw [after1_7]
  unfold out1_7
  rw [View.canon_unit_zero hz]
  simp only [View.ld_unit_zero (S := S5000x128) hz, View.ld_unit_zero (S := S128x128) hz, View.ld_unit_zero (S := S1x128) hz]
  funext j
  obtain ⟨e00, e01, e10, e11, e20, e21, e30, e31, e40, e41, e50, e51, e60, e61, e70, e71, ht⟩ := idx_facts t
  obtain ⟨p, q, rfl⟩ : ∃ (p : Fin 5000) (q : Fin 128), j = ix2 p q := ⟨j 0, j 1, eq_ix2 j⟩
  have hrow : t.val * 5000 + p.val < 40000 := by omega
  show k1_pay1 (F := Ideal) (k1_pay2 (iblk1 V c 0 t) (iblk1 V c 1 t) (iblk1 V c 2 t) (iblk1 V c 3 t) (iblk1 V c 4 t) (iblk1 V c 5 t))
      (iblk1 V c 6 t) (ix2 p q) = G V c (((cfg1.win 7).blk t).view.emb (ix2 p q))
  refine (Pay.pay1_apply (iblk1 V c 0 t) (iblk1 V c 1 t) (iblk1 V c 2 t) (iblk1 V c 3 t) (iblk1 V c 4 t) (iblk1 V c 5 t)
    (iblk1 V c 6 t) p q).trans ?_
  have e7 : ((cfg1.win 7).blk t).view.emb (ix2 p q) = ix2 (⟨t.val * 5000 + p.val, hrow⟩ : Fin 40000) q := by
    funext a; apply Fin.ext
    match a with
    | ⟨0, _⟩ => show win1_7.index t (0 : Fin 2) * 5000 + 1 * p.val = t.val * 5000 + p.val; omega
    | ⟨1, _⟩ => show win1_7.index t (1 : Fin 2) * 128 + 1 * q.val = q.val; omega
  have b0 : ∀ k : Fin 128, iblk1 V c 0 t (ix2 p k) = V c main_v39 (ix2 (⟨t.val * 5000 + p.val, hrow⟩ : Fin 40000) k) := fun k => by
    show V c main_v39 (((cfg1.win 0).blk t).view.emb (ix2 p k)) = _
    refine congrArg (V c main_v39) (funext fun a => Fin.ext ?_)
    match a with
    | ⟨0, _⟩ => show win1_0.index t (0 : Fin 2) * 5000 + 1 * p.val = t.val * 5000 + p.val; omega
    | ⟨1, _⟩ => show win1_0.index t (1 : Fin 2) * 128 + 1 * k.val = k.val; omega
  have b1 : ∀ k : Fin 128, iblk1 V c 1 t (ix2 p k) = V c main_v26 (ix2 (⟨t.val * 5000 + p.val, hrow⟩ : Fin 40000) k) := fun k => by
    show V c main_v26 (((cfg1.win 1).blk t).view.emb (ix2 p k)) = _
    refine congrArg (V c main_v26) (funext fun a => Fin.ext ?_)
    match a with
    | ⟨0, _⟩ => show win1_1.index t (0 : Fin 2) * 5000 + 1 * p.val = t.val * 5000 + p.val; omega
    | ⟨1, _⟩ => show win1_1.index t (1 : Fin 2) * 128 + 1 * k.val = k.val; omega
  have b2 : ∀ (k r : Fin 128), iblk1 V c 2 t (ix2 k r) = V c main_arg5 (ix2 k r) := fun k r => by
    show V c main_arg5 (((cfg1.win 2).blk t).view.emb (ix2 k r)) = _
    refine congrArg (V c main_arg5) (funext fun a => Fin.ext ?_)
    match a with
    | ⟨0, _⟩ => show win1_2.index t (0 : Fin 2) * 128 + 1 * k.val = k.val; omega
    | ⟨1, _⟩ => show win1_2.index t (1 : Fin 2) * 128 + 1 * r.val = r.val; omega
  have b3 : ∀ (k r : Fin 128), iblk1 V c 3 t (ix2 k r) = V c main_arg6 (ix2 k r) := fun k r => by
    show V c main_arg6 (((cfg1.win 3).blk t).view.emb (ix2 k r)) = _
    refine congrArg (V c main_arg6) (funext fun a => Fin.ext ?_)
    match a with
    | ⟨0, _⟩ => show win1_3.index t (0 : Fin 2) * 128 + 1 * k.val = k.val; omega
    | ⟨1, _⟩ => show win1_3.index t (1 : Fin 2) * 128 + 1 * r.val = r.val; omega
  have b4 : ∀ (r : Fin 128), iblk1 V c 4 t (ix2 (0 : Fin 1) r) = V c main_v40 (ix2 (0 : Fin 1) r) := fun r => by
    show V c main_v40 (((cfg1.win 4).blk t).view.emb (ix2 (0 : Fin 1) r)) = _
    refine congrArg (V c main_v40) (funext fun a => Fin.ext ?_)
    match a with
    | ⟨0, _⟩ => show win1_4.index t (0 : Fin 2) * 1 + 1 * 0 = 0; omega
    | ⟨1, _⟩ => show win1_4.index t (1 : Fin 2) * 128 + 1 * r.val = r.val; omega
  have b5 : ∀ (r : Fin 128), iblk1 V c 5 t (ix2 (0 : Fin 1) r) = V c main_v41 (ix2 (0 : Fin 1) r) := fun r => by
    show V c main_v41 (((cfg1.win 5).blk t).view.emb (ix2 (0 : Fin 1) r)) = _
    refine congrArg (V c main_v41) (funext fun a => Fin.ext ?_)
    match a with
    | ⟨0, _⟩ => show win1_5.index t (0 : Fin 2) * 1 + 1 * 0 = 0; omega
    | ⟨1, _⟩ => show win1_5.index t (1 : Fin 2) * 128 + 1 * r.val = r.val; omega
  have b6 : ∀ (r : Fin 128), iblk1 V c 6 t (ix2 (0 : Fin 1) r) = V c main_v42 (ix2 (0 : Fin 1) r) := fun r => by
    show V c main_v42 (((cfg1.win 6).blk t).view.emb (ix2 (0 : Fin 1) r)) = _
    refine congrArg (V c main_v42) (funext fun a => Fin.ext ?_)
    match a with
    | ⟨0, _⟩ => show win1_6.index t (0 : Fin 2) * 1 + 1 * 0 = 0; omega
    | ⟨1, _⟩ => show win1_6.index t (1 : Fin 2) * 128 + 1 * r.val = r.val; omega
  rw [e7]
  simp only [b0, b1, b2, b3, b4, b5, b6]
  rfl

/-- An index of the output array is in point `t`'s block iff each coordinate is in the block's range on its axis. -/
theorem mem_blk (t : Fin cfg1.N) (i : S40000x128.Idx) :
    i ∈ ((cfg1.win 7).blk t).view.set ↔ ∀ a : Fin 2, win1_7.index t a * S5000x128.size a ≤ (i a).val
      ∧ (i a).val < win1_7.index t a * S5000x128.size a + S5000x128.size a := by
  show i ∈ ((View.whole main_v43).slice (win1_7.rect t)).set ↔ _
  rw [View.set_slice_whole, Rect.mem_set_unit]
  exact Iff.rfl

/-- Every band of 5000 rows is some point's block. -/
theorem idx_onto : ∀ (q0 : Fin 8), ∃ t : Fin cfg1.N, win1_7.index t = ![q0.val, 0] :=
  (by decide +kernel : ∀ (q0 : Fin 8), ∃ t : Fin grid1.N, win1_7.index t = ![q0.val, 0])

/-- The eight blocks of 5000 rows tile the 40000 rows: row `r` is in the block of point `r / 5000`. -/
theorem cover (i : S40000x128.Idx) :
    ∃ t : Fin cfg1.N, (cfg1.win 7).flush t = true ∧ i ∈ ((cfg1.win 7).blk t).view.set := by
  have hi0 : (i 0).val < 40000 := (i 0).isLt
  have hi1 : (i 1).val < 128 := (i 1).isLt
  obtain ⟨t, ht⟩ := idx_onto ⟨(i 0).val / 5000, by omega⟩
  have q0 : win1_7.index t (0 : Fin 2) = (i 0).val / 5000 := congrFun ht 0
  have q1 : win1_7.index t (1 : Fin 2) = 0 := congrFun ht 1
  refine ⟨t, flush1_7 t, ?_⟩
  rw [mem_blk]
  intro a
  match a with
  | ⟨0, _⟩ => show win1_7.index t (0 : Fin 2) * 5000 ≤ (i 0).val ∧ (i 0).val < win1_7.index t (0 : Fin 2) * 5000 + 5000; omega
  | ⟨1, _⟩ => show win1_7.index t (1 : Fin 2) * 128 ≤ (i 1).val ∧ (i 1).val < win1_7.index t (1 : Fin 2) * 128 + 128; omega

/-- The output array after the region: the layer of the arrays the region found. -/
theorem final (c : Dev nD) : (dat1 V c).arrAt 7 cfg1.N = G V c :=
  (dat1 V c).arrAt_eq_of_cover 7 (G V c) (fun t _ => flushed_eq V c t) cover

end Cert.KernelIdeal.Region1

end
-- ==== Proof.KRegion2.lean ====
/-
  Region 2 (the last layer, the affine part alone) as a whole-array function.

  The region runs its body at eight grid points; point `t` reads rows 5000·t … 5000·t + 4999 of the neighbourhood
  means and of the features, the whole weight matrices [128, 64] and the bias row, and writes back the same band of
  rows of the output [40000, 64].  What point `t` writes is block `t` of ONE function of the arrays the region finds;
  the eight bands tile the output array, which therefore ends holding that function.
-/
import proofs.«101974_j3762391351459_1_alg».proof.Proof.Gen.KernelIdeal.Frame
import proofs.«101974_j3762391351459_1_alg».proof.Proof.KPay
import Idealize.ShloMosaic.Lib.Pipeline.Value

set_option maxRecDepth 16384

noncomputable section

namespace Cert.KernelIdeal.Region2

open Cert.KernelIdeal Cert.KernelIdeal.Gen Idealize.ShloMosaic Idealize.ShloMosaic.ValueIdx Idealize.ShloMosaic.TcCoe
open Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 ∧ t.val < 8 :=
  (by decide +kernel : ∀ t : Fin grid2.N, _)

/-- The layer as a function of the arrays the region finds. -/
def G (c : Dev nD) : S40000x64.Idx → EReal :=
  Sage.dense (V c main_v56) (V c main_v43) (V c main_arg8) (V c main_arg9) (fun q => V c main_v57 (ix2 (0 : Fin 1) q))

theorem flushed_eq (c : Dev nD) (t : Fin cfg2.N) :
    (dat2 V c).flushed 5 t = ((cfg2.win 5).blk t).view.read (Elt Ideal) (G V c) := by
  show (cfg2.win 5).cut (grid2.coords t) ((dat2 V c).after 5 t) = _
  rw [after2_5]
  unfold out2_5
  rw [View.canon_unit_zero hz]
  simp only [View.ld_unit_zero (S := S5000x128) hz, View.ld_unit_zero (S := S128x64) hz, View.ld_unit_zero (S := S1x64) hz]
  funext j
  obtain ⟨e00, e01, e10, e11, e20, e21, e30, e31, e40, e41, e50, e51, ht⟩ := idx_facts t
  obtain ⟨p, q, rfl⟩ : ∃ (p : Fin 5000) (q : Fin 64), j = ix2 p q := ⟨j 0, j 1, eq_ix2 j⟩
  have hrow : t.val * 5000 + p.val < 40000 := by omega
  show k2_pay1 (F := Ideal) (iblk2 V c 0 t) (iblk2 V c 1 t) (iblk2 V c 2 t) (iblk2 V c 3 t) (iblk2 V c 4 t) (ix2 p q)
    = G V c (((cfg2.win 5).blk t).view.emb (ix2 p q))
  refine (Pay.pay2_apply (iblk2 V c 0 t) (iblk2 V c 1 t) (iblk2 V c 2 t) (iblk2 V c 3 t) (iblk2 V c 4 t) p q).trans ?_
  have e5 : ((cfg2.win 5).blk t).view.emb (ix2 p q) = ix2 (⟨t.val * 5000 + p.val, hrow⟩ : Fin 40000) q := by
    funext a; apply Fin.ext
    match a with
    | ⟨0, _⟩ => show win2_5.index t (0 : Fin 2) * 5000 + 1 * p.val = t.val * 5000 + p.val; omega
    | ⟨1, _⟩ => show win2_5.index t (1 : Fin 2) * 64 + 1 * q.val = q.val; omega
  have b0 : ∀ k : Fin 128, iblk2 V c 0 t (ix2 p k) = V c main_v56 (ix2 (⟨t.val * 5000 + p.val, hrow⟩ : Fin 40000) k) := fun k => by
    show V c main_v56 (((cfg2.win 0).blk t).view.emb (ix2 p k)) = _
    refine congrArg (V c main_v56) (funext fun a => Fin.ext ?_)
    match a with
    | ⟨0, _⟩ => show win2_0.index t (0 : Fin 2) * 5000 + 1 * p.val = t.val * 5000 + p.val; omega
    | ⟨1, _⟩ => show win2_0.index t (1 : Fin 2) * 128 + 1 * k.val = k.val; omega
  have b1 : ∀ k : Fin 128, iblk2 V c 1 t (ix2 p k) = V c main_v43 (ix2 (⟨t.val * 5000 + p.val, hrow⟩ : Fin 40000) k) := fun k => by
    show V c main_v43 (((cfg2.win 1).blk t).view.emb (ix2 p k)) = _
    refine congrArg (V c main_v43) (funext fun a => Fin.ext ?_)
    match a with
    | ⟨0, _⟩ => show win2_1.index t (0 : Fin 2) * 5000 + 1 * p.val = t.val * 5000 + p.val; omega
    | ⟨1, _⟩ => show win2_1.index t (1 : Fin 2) * 128 + 1 * k.val = k.val; omega
  have b2 : ∀ (k : Fin 128) (r : Fin 64), iblk2 V c 2 t (ix2 k r) = V c main_arg8 (ix2 k r) := fun k r => by
    show V c main_arg8 (((cfg2.win 2).blk t).view.emb (ix2 k r)) = _
    refine congrArg (V c main_arg8) (funext fun a => Fin.ext ?_)
    match a with
    | ⟨0, _⟩ => show win2_2.index t (0 : Fin 2) * 128 + 1 * k.val = k.val; omega
    | ⟨1, _⟩ => show win2_2.index t (1 : Fin 2) * 64 + 1 * r.val = r.val; omega
  have b3 : ∀ (k : Fin 128) (r : Fin 64), iblk2 V c 3 t (ix2 k r) = V c main_arg9 (ix2 k r) := fun k r => by
    show V c main_arg9 (((cfg2.win 3).blk t).view.emb (ix2 k r)) = _
    refine congrArg (V c main_arg9) (funext fun a => Fin.ext ?_)
    match a with
    | ⟨0, _⟩ => show win2_3.index t (0 : Fin 2) * 128 + 1 * k.val = k.val; omega
    | ⟨1, _⟩ => show win2_3.index t (1 : Fin 2) * 64 + 1 * r.val = r.val; omega
  have b4 : ∀ (r : Fin 64), iblk2 V c 4 t (ix2 (0 : Fin 1) r) = V c main_v57 (ix2 (0 : Fin 1) r) := fun r => by
    show V c main_v57 (((cfg2.win 4).blk t).view.emb (ix2 (0 : Fin 1) r)) = _
    refine congrArg (V c main_v57) (funext fun a => Fin.ext ?_)
    match a with
    | ⟨0, _⟩ => show win2_4.index t (0 : Fin 2) * 1 + 1 * 0 = 0; omega
    | ⟨1, _⟩ => show win2_4.index t (1 : Fin 2) * 64 + 1 * r.val = r.val; omega
  rw [e5]
  simp only [b0, b1, b2, b3, b4]
  rfl

/-- An index of the output array is in point `t`'s block iff each coordinate is in the block's range on its axis. -/
theorem mem_blk (t : Fin cfg2.N) (i : S40000x64.Idx) :
    i ∈ ((cfg2.win 5).blk t).view.set ↔ ∀ a : Fin 2, win2_5.index t a * S5000x64.size a ≤ (i a).val
      ∧ (i a).val < win2_5.index t a * S5000x64.size a + S5000x64.size a := by
  show i ∈ ((View.whole main_v58).slice (win2_5.rect t)).set ↔ _
  rw [View.set_slice_whole, Rect.mem_set_unit]
  exact Iff.rfl

/-- Every band of 5000 rows is some point's block. -/
theorem idx_onto : ∀ (q0 : Fin 8), ∃ t : Fin cfg2.N, win2_5.index t = ![q0.val, 0] :=
  (by decide +kernel : ∀ (q0 : Fin 8), ∃ t : Fin grid2.N, win2_5.index t = ![q0.val, 0])

/-- The eight blocks of 5000 rows tile the 40000 rows: row `r` is in the block of point `r / 5000`. -/
theorem cover (i : S40000x64.Idx) :
    ∃ t : Fin cfg2.N, (cfg2.win 5).flush t = true ∧ i ∈ ((cfg2.win 5).blk t).view.set := by
  have hi0 : (i 0).val < 40000 := (i 0).isLt
  have hi1 : (i 1).val < 64 := (i 1).isLt
  obtain ⟨t, ht⟩ := idx_onto ⟨(i 0).val / 5000, by omega⟩
  have q0 : win2_5.index t (0 : Fin 2) = (i 0).val / 5000 := congrFun ht 0
  have q1 : win2_5.index t (1 : Fin 2) = 0 := congrFun ht 1
  refine ⟨t, flush2_5 t, ?_⟩
  rw [mem_blk]
  intro a
  match a with
  | ⟨0, _⟩ => show win2_5.index t (0 : Fin 2) * 5000 ≤ (i 0).val ∧ (i 0).val < win2_5.index t (0 : Fin 2) * 5000 + 5000; omega
  | ⟨1, _⟩ => show win2_5.index t (1 : Fin 2) * 64 ≤ (i 1).val ∧ (i 1).val < win2_5.index t (1 : Fin 2) * 64 + 64; omega

/-- The output array after the region: the layer of the arrays the region found. -/
theorem final (c : Dev nD) : (dat2 V c).arrAt 5 cfg2.N = G V c :=
  (dat2 V c).arrAt_eq_of_cover 5 (G V c) (fun t _ => flushed_eq V c t) cover

end Cert.KernelIdeal.Region2

end
-- ==== Proof.KWhole.lean ====
/-
  The kernel program's result as one function of its arguments: three layers composed.

  Region 0's output is the first normalised layer of the neighbourhood means of the input features and the features
  themselves; region 1's is the second normalised layer of the means of that output and the output itself; region 2's
  — the program's result — is the affine layer of the means of region 1's output and that output.  The source and
  destination index vectors and the clamped in-degree are computed once by the first host stretch and found unchanged
  at every later boundary, as are the weights and the parameter vectors.
-/
import proofs.«101974_j3762391351459_1_alg».proof.Proof.KHost
import proofs.«101974_j3762391351459_1_alg».proof.Proof.KRegion0
import proofs.«101974_j3762391351459_1_alg».proof.Proof.KRegion1
import proofs.«101974_j3762391351459_1_alg».proof.Proof.KRegion2

set_option maxRecDepth 16384

noncomputable section

namespace Cert.KernelIdeal.Whole

open Cert.KernelIdeal Cert.KernelIdeal.Gen Cert.KernelIdeal.HostRead Idealize.ShloMosaic Idealize.ShloMosaic.ValueIdx
open Idealize.ShloMosaic.TcCoe Idealize.SL.Sem

/-- A parameter vector's entry `q`, read off its row layout. -/
abbrev rowfn128 (x : (⟨S128, .f32⟩ : BufTy).Contents (Elt Ideal)) : Fin 128 → EReal := fun q => row128 x (ix2 (0 : Fin 1) q)
abbrev rowfn64 (x : (⟨S64, .f32⟩ : BufTy).Contents (Elt Ideal)) : Fin 64 → EReal := fun q => row64 x (ix2 (0 : Fin 1) q)

/-- The neighbourhood means of the rows of `h` along the edges `e`. -/
def agg (h : (⟨S40000x128, .f32⟩ : BufTy).Contents (Elt Ideal)) (e : (⟨S2x640000, .i32⟩ : BufTy).Contents (Elt Ideal)) :
    (⟨S40000x128, .f32⟩ : BufTy).Contents (Elt Ideal) :=
  aggK h (srcK e) (dstK e) (cntK (dstK e))

/-- The first layer's output. -/
def h1 (x0 : (⟨S40000x128, .f32⟩ : BufTy).Contents (Elt Ideal)) (x1 : (⟨S2x640000, .i32⟩ : BufTy).Contents (Elt Ideal))
    (x2 x3 : (⟨S128x128, .f32⟩ : BufTy).Contents (Elt Ideal)) (x4 x11 x12 : (⟨S128, .f32⟩ : BufTy).Contents (Elt Ideal)) :
    (⟨S40000x128, .f32⟩ : BufTy).Contents (Elt Ideal) :=
  Sage.denseLN (agg x0 x1) x0 x2 x3 (rowfn128 x4) (rowfn128 x11) (rowfn128 x12)

/-- The second layer's output. -/
def h2 (x0 : (⟨S40000x128, .f32⟩ : BufTy).Contents (Elt Ideal)) (x1 : (⟨S2x640000, .i32⟩ : BufTy).Contents (Elt Ideal))
    (x2 x3 : (⟨S128x128, .f32⟩ : BufTy).Contents (Elt Ideal)) (x4 : (⟨S128, .f32⟩ : BufTy).Contents (Elt Ideal))
    (x5 x6 : (⟨S128x128, .f32⟩ : BufTy).Contents (Elt Ideal)) (x7 x11 x12 : (⟨S128, .f32⟩ : BufTy).Contents (Elt Ideal)) :
    (⟨S40000x128, .f32⟩ : BufTy).Contents (Elt Ideal) :=
  Sage.denseLN (agg (h1 x0 x1 x2 x3 x4 x11 x12) x1) (h1 x0 x1 x2 x3 x4 x11 x12) x5 x6 (rowfn128 x7) (rowfn128 x11) (rowfn128 x12)

/-- The result. -/
def out (x0 : (⟨S40000x128, .f32⟩ : BufTy).Contents (Elt Ideal)) (x1 : (⟨S2x640000, .i32⟩ : BufTy).Contents (Elt Ideal))
    (x2 x3 : (⟨S128x128, .f32⟩ : BufTy).Contents (Elt Ideal)) (x4 : (⟨S128, .f32⟩ : BufTy).Contents (Elt Ideal))
    (x5 x6 : (⟨S128x128, .f32⟩ : BufTy).Contents (Elt Ideal)) (x7 : (⟨S128, .f32⟩ : BufTy).Contents (Elt Ideal))
    (x8 x9 : (⟨S128x64, .f32⟩ : BufTy).Contents (Elt Ideal)) (x10 : (⟨S64, .f32⟩ : BufTy).Contents (Elt Ideal))
    (x11 x12 : (⟨S128, .f32⟩ : BufTy).Contents (Elt Ideal)) : (⟨S40000x64, .f32⟩ : BufTy).Contents (Elt Ideal) :=
  Sage.dense (agg (h2 x0 x1 x2 x3 x4 x5 x6 x7 x11 x12) x1) (h2 x0 x1 x2 x3 x4 x5 x6 x7 x11 x12) x8 x9 (rowfn64 x10)

variable (m : (ℓ : Loc nD τ sig) → Buf (Elt Ideal) ℓ) (ρ : Dev nD → PrngReg)

/-! ## Region 0's exit -/

theorem W2_v26 (c : Dev nD) : W2 m ρ c (Proc.devRef .tc main_v26)
    = h1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg11)) (m ((c : Thread nD τ).loc main_arg12)) := by
  refine (W2_arr m ρ c 7).trans ((Region0.final (V1 m ρ) c).trans ?_)
  unfold Region0.G h1 agg rowfn128
  show Sage.denseLN (W1 m ρ c (Proc.devRef .tc main_v22)) (W1 m ρ c (Proc.devRef .tc main_arg0))
      (W1 m ρ c (Proc.devRef .tc main_arg2)) (W1 m ρ c (Proc.devRef .tc main_arg3))
      (fun q => W1 m ρ c (Proc.devRef .tc main_v23) (ix2 (0 : Fin 1) q))
      (fun q => W1 m ρ c (Proc.devRef .tc main_v24) (ix2 (0 : Fin 1) q))
      (fun q => W1 m ρ c (Proc.devRef .tc main_v25) (ix2 (0 : Fin 1) q)) = _
  rw [W1_v22, W1_arg0, W1_arg2, W1_arg3, W1_v23, W1_v24, W1_v25]

theorem W2_v1 (c : Dev nD) : W2 m ρ c (Proc.devRef .tc main_v1) = srcK (m ((c : Thread nD τ).loc main_arg1)) :=
  (W2_of_ne m ρ c main_v1 (by decide)).trans (W1_v1 m ρ c)
theorem W2_v3 (c : Dev nD) : W2 m ρ c (Proc.devRef .tc main_v3) = dstK (m ((c : Thread nD τ).loc main_arg1)) :=
  (W2_of_ne m ρ c main_v3 (by decide)).trans (W1_v3 m ρ c)
theorem W2_v9 (c : Dev nD) : W2 m ρ c (Proc.devRef .tc main_v9) = cntK (dstK (m ((c : Thread nD τ).loc main_arg1))) :=
  (W2_of_ne m ρ c main_v9 (by decide)).trans (W1_v9 m ρ c)
theorem W2_arg5 (c : Dev nD) : W2 m ρ c (Proc.devRef .tc main_arg5) = (m ((c : Thread nD τ).loc main_arg5)) :=
  (W2_of_ne m ρ c main_arg5 (by decide)).trans (W1_arg5 m ρ c)
theorem W2_arg6 (c : Dev nD) : W2 m ρ c (Proc.devRef .tc main_arg6) = (m ((c : Thread nD τ).loc main_arg6)) :=
  (W2_of_ne m ρ c main_arg6 (by decide)).trans (W1_arg6 m ρ c)
theorem W2_arg7 (c : Dev nD) : W2 m ρ c (Proc.devRef .tc main_arg7) = (m ((c : Thread nD τ).loc main_arg7)) :=
  (W2_of_ne m ρ c main_arg7 (by decide)).trans (W1_arg7 m ρ c)
theorem W2_arg8 (c : Dev nD) : W2 m ρ c (Proc.devRef .tc main_arg8) = (m ((c : Thread nD τ).loc main_arg8)) :=
  (W2_of_ne m ρ c main_arg8 (by decide)).trans (W1_arg8 m ρ c)
theorem W2_arg9 (c : Dev nD) : W2 m ρ c (Proc.devRef .tc main_arg9) = (m ((c : Thread nD τ).loc main_arg9)) :=
  (W2_of_ne m ρ c main_arg9 (by decide)).trans (W1_arg9 m ρ c)
theorem W2_arg10 (c : Dev nD) : W2 m ρ c (Proc.devRef .tc main_arg10) = (m ((c : Thread nD τ).loc main_arg10)) :=
  (W2_of_ne m ρ c main_arg10 (by decide)).trans (W1_arg10 m ρ c)
theorem W2_arg11 (c : Dev nD) : W2 m ρ c (Proc.devRef .tc main_arg11) = (m ((c : Thread nD τ).loc main_arg11)) :=
  (W2_of_ne m ρ c main_arg11 (by decide)).trans (W1_arg11 m ρ c)
theorem W2_arg12 (c : Dev nD) : W2 m ρ c (Proc.devRef .tc main_arg12) = (m ((c : Thread nD τ).loc main_arg12)) :=
  (W2_of_ne m ρ c main_arg12 (by decide)).trans (W1_arg12 m ρ c)

/-! ## Region 1's exit -/

theorem W4_v43 (c : Dev nD) : W4 m ρ c (Proc.devRef .tc main_v43)
    = h2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg11)) (m ((c : Thread nD τ).loc main_arg12)) := by
  refine (W4_arr m ρ c 7).trans ((Region1.final (V3 m ρ) c).trans ?_)
  obtain ⟨k26, k5, k6, k1, k3, k9, k8, k9', k10⟩ := W3_keep m ρ c
  unfold Region1.G h2 agg rowfn128
  show Sage.denseLN (W3 m ρ c (Proc.devRef .tc main_v39)) (W3 m ρ c (Proc.devRef .tc main_v26))
      (W3 m ρ c (Proc.devRef .tc main_arg5)) (W3 m ρ c (Proc.devRef .tc main_arg6))
      (fun q => W3 m ρ c (Proc.devRef .tc main_v40) (ix2 (0 : Fin 1) q))
      (fun q => W3 m ρ c (Proc.devRef .tc main_v41) (ix2 (0 : Fin 1) q))
      (fun q => W3 m ρ c (Proc.devRef .tc main_v42) (ix2 (0 : Fin 1) q)) = _
  rw [W3_v39, k26, k5, k6, W3_v40, W3_v41, W3_v42, W2_v26, W2_v1, W2_v3, W2_v9, W2_arg5, W2_arg6, W2_arg7, W2_arg11, W2_arg12]

theorem W4_v1 (c : Dev nD) : W4 m ρ c (Proc.devRef .tc main_v1) = srcK (m ((c : Thread nD τ).loc main_arg1)) :=
  (W4_of_ne m ρ c main_v1 (by decide)).trans ((W3_keep m ρ c).2.2.2.1.trans (W2_v1 m ρ c))
theorem W4_v3 (c : Dev nD) : W4 m ρ c (Proc.devRef .tc main_v3) = dstK (m ((c : Thread nD τ).loc main_arg1)) :=
  (W4_of_ne m ρ c main_v3 (by decide)).trans ((W3_keep m ρ c).2.2.2.2.1.trans (W2_v3 m ρ c))
theorem W4_v9 (c : Dev nD) : W4 m ρ c (Proc.devRef .tc main_v9) = cntK (dstK (m ((c : Thread nD τ).loc main_arg1))) :=
  (W4_of_ne m ρ c main_v9 (by decide)).trans ((W3_keep m ρ c).2.2.2.2.2.1.trans (W2_v9 m ρ c))
theorem W4_arg8 (c : Dev nD) : W4 m ρ c (Proc.devRef .tc main_arg8) = (m ((c : Thread nD τ).loc main_arg8)) :=
  (W4_of_ne m ρ c main_arg8 (by decide)).trans ((W3_keep m ρ c).2.2.2.2.2.2.1.trans (W2_arg8 m ρ c))
theorem W4_arg9 (c : Dev nD) : W4 m ρ c (Proc.devRef .tc main_arg9) = (m ((c : Thread nD τ).loc main_arg9)) :=
  (W4_of_ne m ρ c main_arg9 (by decide)).trans ((W3_keep m ρ c).2.2.2.2.2.2.2.1.trans (W2_arg9 m ρ c))
theorem W4_arg10 (c : Dev nD) : W4 m ρ c (Proc.devRef .tc main_arg10) = (m ((c : Thread nD τ).loc main_arg10)) :=
  (W4_of_ne m ρ c main_arg10 (by decide)).trans ((W3_keep m ρ c).2.2.2.2.2.2.2.2.trans (W2_arg10 m ρ c))

/-! ## The result -/

theorem W6_v58 (c : Dev nD) : W6 m ρ c (Proc.devRef .tc main_v58)
    = out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  refine (W6_arr m ρ c 5).trans ((Region2.final (V5 m ρ) c).trans ?_)
  obtain ⟨k43, k8, k9⟩ := W5_keep m ρ c
  unfold Region2.G out agg rowfn64
  show Sage.dense (W5 m ρ c (Proc.devRef .tc main_v56)) (W5 m ρ c (Proc.devRef .tc main_v43))
      (W5 m ρ c (Proc.devRef .tc main_arg8)) (W5 m ρ c (Proc.devRef .tc main_arg9))
      (fun q => W5 m ρ c (Proc.devRef .tc main_v57) (ix2 (0 : Fin 1) q)) = _
  rw [W5_v56, k43, k8, k9, W5_v57, W4_v43, W4_v1, W4_v3, W4_v9, W4_arg8, W4_arg9, W4_arg10]

end Cert.KernelIdeal.Whole

end
-- ==== Proof.RefLayers.lean ====
/-
  The reference program's three layers, each as one whole-array function of its inputs.

  The reference computes a layer one array operation at a time: a matrix product of the neighbourhood means with
  one weight matrix, the bias broadcast along the rows and added, the product of the node features with the other
  weight matrix added last; the first two layers then take each row's mean and mean squared deviation, normalise,
  scale, shift and keep the positive part.  Read at one entry, every stage is an arithmetic expression in the
  entries of its operands; chaining the stages gives, at entry (r, q), exactly the closed form of Spec.lean
  (`Sage.dense`, `Sage.denseLN`), up to the one regrouping `(A + b) + B = (A + B) + b`.

  The neighbourhood means of layers 2 and 3 are the same chain of array operations as layer 1's (gather the rows
  named by the edge sources, add them into the rows named by the edge destinations, divide by the clamped
  in-degree), applied to the previous layer's output: the stages differ only in which array they read.
-/
import proofs.«101974_j3762391351459_1_alg».proof.Proof.Gen.ReferenceIdeal.Read
import proofs.«101974_j3762391351459_1_alg».proof.Proof.Spec
import Idealize.ShloMosaic.Lib.ValueIdx
import Idealize.ShloMosaic.Lib.Pipeline.Value
import Idealize.ShloMosaic.PureOps.Ideal.Laws

noncomputable section

namespace Cert.ReferenceIdeal.Layers

open Cert.ReferenceIdeal Cert.ReferenceIdeal.Read Idealize.ShloMosaic Idealize.ShloMosaic.ValueIdx
open Cert

/-- Layer 3 (the affine part alone, 128 features in, 64 out) as one function of its inputs: at every entry the two
    matrix products and the bias, regrouped. -/
theorem layer3 (x0 : (⟨S40000x128, .f32⟩ : BufTy).Contents (Elt Ideal)) (x1 : (⟨S2x640000, .i32⟩ : BufTy).Contents (Elt Ideal)) (x2 x3 : (⟨S128x128, .f32⟩ : BufTy).Contents (Elt Ideal)) (x4 : (⟨S128, .f32⟩ : BufTy).Contents (Elt Ideal)) (x5 x6 : (⟨S128x128, .f32⟩ : BufTy).Contents (Elt Ideal)) (x7 : (⟨S128, .f32⟩ : BufTy).Contents (Elt Ideal)) (x8 x9 : (⟨S128x64, .f32⟩ : BufTy).Contents (Elt Ideal)) (x10 : (⟨S64, .f32⟩ : BufTy).Contents (Elt Ideal)) (x11 x12 : (⟨S128, .f32⟩ : BufTy).Contents (Elt Ideal)) :
    val_main_v128 (F := Ideal) x0 x1 x2 x3 x4 x5 x6 x7 x8 x9 x10 x11 x12
      = Sage.dense (val_main_v122 (F := Ideal) x0 x1 x2 x3 x4 x5 x6 x7 x11 x12) (val_main_v103 (F := Ideal) x0 x1 x2 x3 x4 x5 x6 x7 x11 x12) x8 x9 (fun q => x10 (ix1 q)) := by
  funext i
  obtain ⟨r, c, rfl⟩ : ∃ (r : Fin 40000) (c : Fin 64), i = ix2 r c := ⟨i 0, i 1, eq_ix2 i⟩
  rw [val_main_v128_apply, val_main_v126_apply, val_main_v123_apply, val_main_v127_apply,
    val_main_v125_apply, val_main_v124_apply]
  have hl : ∀ k, lidx_main_v123 (ix2 r c) k = ix2 r k := fun k => funext fun a => by
    match a with | ⟨0, _⟩ => rfl | ⟨1, _⟩ => rfl
  have hr : ∀ k, ridx_main_v123 (ix2 r c) k = ix2 k c := fun k => funext fun a => by
    match a with | ⟨0, _⟩ => rfl | ⟨1, _⟩ => rfl
  have hl' : ∀ k, lidx_main_v127 (ix2 r c) k = ix2 r k := fun k => funext fun a => by
    match a with | ⟨0, _⟩ => rfl | ⟨1, _⟩ => rfl
  have hr' : ∀ k, ridx_main_v127 (ix2 r c) k = ix2 k c := fun k => funext fun a => by
    match a with | ⟨0, _⟩ => rfl | ⟨1, _⟩ => rfl
  have hb : idx_main_v124 (idx_main_v125 (ix2 r c)) = ix1 c := funext fun a => by
    match a with | ⟨0, _⟩ => rfl
  simp only [hl, hr, hl', hr', hb, Ideal.addf_def]
  exact Sage.lin_regroup _ _ _ _ _

/-- The affine part of layer 1 at every entry: the two matrix products and the bias, regrouped. -/
theorem dense1 (x0 : (⟨S40000x128, .f32⟩ : BufTy).Contents (Elt Ideal)) (x1 : (⟨S2x640000, .i32⟩ : BufTy).Contents (Elt Ideal)) (x2 x3 : (⟨S128x128, .f32⟩ : BufTy).Contents (Elt Ideal)) (x4 : (⟨S128, .f32⟩ : BufTy).Contents (Elt Ideal)) :
    val_main_v28 (F := Ideal) x0 x1 x2 x3 x4
      = Sage.dense (val_main_v22 (F := Ideal) x0 x1) (x0) x2 x3 (fun q => x4 (ix1 q)) := by
  funext i
  obtain ⟨r, c, rfl⟩ : ∃ (r : Fin 40000) (c : Fin 128), i = ix2 r c := ⟨i 0, i 1, eq_ix2 i⟩
  rw [val_main_v28_apply, val_main_v26_apply, val_main_v23_apply, val_main_v27_apply,
    val_main_v25_apply, val_main_v24_apply]
  have hl : ∀ k, lidx_main_v23 (ix2 r c) k = ix2 r k := fun k => funext fun a => by
    match a with | ⟨0, _⟩ => rfl | ⟨1, _⟩ => rfl
  have hr : ∀ k, ridx_main_v23 (ix2 r c) k = ix2 k c := fun k => funext fun a => by
    match a with | ⟨0, _⟩ => rfl | ⟨1, _⟩ => rfl
  have hl' : ∀ k, lidx_main_v27 (ix2 r c) k = ix2 r k := fun k => funext fun a => by
    match a with | ⟨0, _⟩ => rfl | ⟨1, _⟩ => rfl
  have hr' : ∀ k, ridx_main_v27 (ix2 r c) k = ix2 k c := fun k => funext fun a => by
    match a with | ⟨0, _⟩ => rfl | ⟨1, _⟩ => rfl
  have hb : idx_main_v24 (idx_main_v25 (ix2 r c)) = ix1 c := funext fun a => by
    match a with | ⟨0, _⟩ => rfl
  simp only [hl, hr, hl', hr', hb, Ideal.addf_def]
  exact Sage.lin_regroup _ _ _ _ _

/-- Layer 1 after its affine part `h`: every entry of the output is the normalised, scaled, shifted and clipped entry of
    `h`'s row.  The row's mean is read through two broadcasts (once to centre the entry, once inside the squared
    deviations), and both reads are the same sum over the row divided by 128. -/
theorem ln1 (x0 : (⟨S40000x128, .f32⟩ : BufTy).Contents (Elt Ideal)) (x1 : (⟨S2x640000, .i32⟩ : BufTy).Contents (Elt Ideal)) (x2 x3 : (⟨S128x128, .f32⟩ : BufTy).Contents (Elt Ideal)) (x4 : (⟨S128, .f32⟩ : BufTy).Contents (Elt Ideal)) (x11 x12 : (⟨S128, .f32⟩ : BufTy).Contents (Elt Ideal)) :
    val_main_v53 (F := Ideal) x0 x1 x2 x3 x4 x11 x12
      = fun i => Sage.lnrelu (fun q => val_main_v28 (F := Ideal) x0 x1 x2 x3 x4 (ix2 (i 0) q))
          (fun q => x11 (ix1 q)) (fun q => x12 (ix1 q)) (i 1) := by
  funext i
  obtain ⟨r, c, rfl⟩ : ∃ (r : Fin 40000) (c : Fin 128), i = ix2 r c := ⟨i 0, i 1, eq_ix2 i⟩
  show _ = Sage.lnrelu (fun q => val_main_v28 (F := Ideal) x0 x1 x2 x3 x4 (ix2 r q))
    (fun q => x11 (ix1 q)) (fun q => x12 (ix1 q)) c
  simp only [
    val_main_v53_apply, val_main_v52_apply, val_main_v51_apply, val_main_v50_apply, val_main_v49_apply,
    val_main_v48_apply, val_main_v47_apply, val_main_v46_apply, val_main_v45_apply, val_main_v44_apply,
    val_main_v43_apply, val_main_v42_apply, val_main_v41_apply, val_main_v40_apply, val_main_v39_apply,
    val_main_v38_apply, val_main_v37_apply, val_main_v36_apply, val_main_v35_apply, val_main_v34_apply,
    val_main_v33_apply, val_main_v32_apply, val_main_v31_apply, val_main_v30_apply, val_main_v29_apply,
    val_main_cst_4_apply, val_main_cst_5_apply, val_main_cst_6_apply, val_main_cst_7_apply, val_main_cst_8_apply,
    val_main_call0_v0_apply, val_main_call0_cst_apply]
  generalize val_main_v28 (F := Ideal) x0 x1 x2 x3 x4 = h
  have e1 : ∀ c' k : Fin 128, idx_main_v29 (idx_main_v30 (idx_main_v40 (ix2 r c'))) k = ix2 r k := fun c' k => funext fun a => by
    match a with | ⟨0, _⟩ => rfl | ⟨1, _⟩ => rfl
  have e2 : ∀ c' k : Fin 128, idx_main_v36 (idx_main_v37 (idx_main_v45 (ix2 r c'))) k = ix2 r k := fun c' k => funext fun a => by
    match a with | ⟨0, _⟩ => rfl | ⟨1, _⟩ => rfl
  have e3 : ∀ c' k : Fin 128, idx_main_v29 (idx_main_v30 (idx_main_v33 (ix2 r c'))) k = ix2 r k := fun c' k => funext fun a => by
    match a with | ⟨0, _⟩ => rfl | ⟨1, _⟩ => rfl
  have eg : idx_main_v47 (idx_main_v48 (ix2 r c)) = ix1 c := funext fun a => by match a with | ⟨0, _⟩ => rfl
  have eb : idx_main_v50 (idx_main_v51 (ix2 r c)) = ix1 c := funext fun a => by match a with | ⟨0, _⟩ => rfl
  unfold Sage.lnrelu Sage.mean128
  simp only [e1, e2, e3, eg, eb, Ideal.addf_def, Ideal.subf_def, Ideal.mulf_def, Ideal.hostDivf_def, Ideal.maximumf_def,
    Ideal.hostUnary_rsqrt_def, Ideal.ofBits_def, Ideal.ofBits_zero_f32, zero_add]

/-- Layer 1 as one function of its inputs. -/
theorem layer1 (x0 : (⟨S40000x128, .f32⟩ : BufTy).Contents (Elt Ideal)) (x1 : (⟨S2x640000, .i32⟩ : BufTy).Contents (Elt Ideal)) (x2 x3 : (⟨S128x128, .f32⟩ : BufTy).Contents (Elt Ideal)) (x4 : (⟨S128, .f32⟩ : BufTy).Contents (Elt Ideal)) (x11 x12 : (⟨S128, .f32⟩ : BufTy).Contents (Elt Ideal)) :
    val_main_v53 (F := Ideal) x0 x1 x2 x3 x4 x11 x12
      = Sage.denseLN (val_main_v22 (F := Ideal) x0 x1) (x0) x2 x3
          (fun q => x4 (ix1 q)) (fun q => x11 (ix1 q)) (fun q => x12 (ix1 q)) := by
  rw [ln1, dense1]
  rfl

/-- The affine part of layer 2 at every entry: the two matrix products and the bias, regrouped. -/
theorem dense2 (x0 : (⟨S40000x128, .f32⟩ : BufTy).Contents (Elt Ideal)) (x1 : (⟨S2x640000, .i32⟩ : BufTy).Contents (Elt Ideal)) (x2 x3 : (⟨S128x128, .f32⟩ : BufTy).Contents (Elt Ideal)) (x4 : (⟨S128, .f32⟩ : BufTy).Contents (Elt Ideal)) (x5 x6 : (⟨S128x128, .f32⟩ : BufTy).Contents (Elt Ideal)) (x7 x11 x12 : (⟨S128, .f32⟩ : BufTy).Contents (Elt Ideal)) :
    val_main_v78 (F := Ideal) x0 x1 x2 x3 x4 x5 x6 x7 x11 x12
      = Sage.dense (val_main_v72 (F := Ideal) x0 x1 x2 x3 x4 x11 x12) (val_main_v53 (F := Ideal) x0 x1 x2 x3 x4 x11 x12) x5 x6 (fun q => x7 (ix1 q)) := by
  funext i
  obtain ⟨r, c, rfl⟩ : ∃ (r : Fin 40000) (c : Fin 128), i = ix2 r c := ⟨i 0, i 1, eq_ix2 i⟩
  rw [val_main_v78_apply, val_main_v76_apply, val_main_v73_apply, val_main_v77_apply,
    val_main_v75_apply, val_main_v74_apply]
  have hl : ∀ k, lidx_main_v73 (ix2 r c) k = ix2 r k := fun k => funext fun a => by
    match a with | ⟨0, _⟩ => rfl | ⟨1, _⟩ => rfl
  have hr : ∀ k, ridx_main_v73 (ix2 r c) k = ix2 k c := fun k => funext fun a => by
    match a with | ⟨0, _⟩ => rfl | ⟨1, _⟩ => rfl
  have hl' : ∀ k, lidx_main_v77 (ix2 r c) k = ix2 r k := fun k => funext fun a => by
    match a with | ⟨0, _⟩ => rfl | ⟨1, _⟩ => rfl
  have hr' : ∀ k, ridx_main_v77 (ix2 r c) k = ix2 k c := fun k => funext fun a => by
    match a with | ⟨0, _⟩ => rfl | ⟨1, _⟩ => rfl
  have hb : idx_main_v74 (idx_main_v75 (ix2 r c)) = ix1 c := funext fun a => by
    match a with | ⟨0, _⟩ => rfl
  simp only [hl, hr, hl', hr', hb, Ideal.addf_def]
  exact Sage.lin_regroup _ _ _ _ _

/-- Layer 2 after its affine part `h`: every entry of the output is the normalised, scaled, shifted and clipped entry of
    `h`'s row.  The row's mean is read through two broadcasts (once to centre the entry, once inside the squared
    deviations), and both reads are the same sum over the row divided by 128. -/
theorem ln2 (x0 : (⟨S40000x128, .f32⟩ : BufTy).Contents (Elt Ideal)) (x1 : (⟨S2x640000, .i32⟩ : BufTy).Contents (Elt Ideal)) (x2 x3 : (⟨S128x128, .f32⟩ : BufTy).Contents (Elt Ideal)) (x4 : (⟨S128, .f32⟩ : BufTy).Contents (Elt Ideal)) (x5 x6 : (⟨S128x128, .f32⟩ : BufTy).Contents (Elt Ideal)) (x7 x11 x12 : (⟨S128, .f32⟩ : BufTy).Contents (Elt Ideal)) :
    val_main_v103 (F := Ideal) x0 x1 x2 x3 x4 x5 x6 x7 x11 x12
      = fun i => Sage.lnrelu (fun q => val_main_v78 (F := Ideal) x0 x1 x2 x3 x4 x5 x6 x7 x11 x12 (ix2 (i 0) q))
          (fun q => x11 (ix1 q)) (fun q => x12 (ix1 q)) (i 1) := by
  funext i
  obtain ⟨r, c, rfl⟩ : ∃ (r : Fin 40000) (c : Fin 128), i = ix2 r c := ⟨i 0, i 1, eq_ix2 i⟩
  show _ = Sage.lnrelu (fun q => val_main_v78 (F := Ideal) x0 x1 x2 x3 x4 x5 x6 x7 x11 x12 (ix2 r q))
    (fun q => x11 (ix1 q)) (fun q => x12 (ix1 q)) c
  simp only [
    val_main_v103_apply, val_main_v102_apply, val_main_v101_apply, val_main_v100_apply, val_main_v99_apply,
    val_main_v98_apply, val_main_v97_apply, val_main_v96_apply, val_main_v95_apply, val_main_v94_apply,
    val_main_v93_apply, val_main_v92_apply, val_main_v91_apply, val_main_v90_apply, val_main_v89_apply,
    val_main_v88_apply, val_main_v87_apply, val_main_v86_apply, val_main_v85_apply, val_main_v84_apply,
    val_main_v83_apply, val_main_v82_apply, val_main_v81_apply, val_main_v80_apply, val_main_v79_apply,
    val_main_cst_15_apply, val_main_cst_16_apply, val_main_cst_17_apply, val_main_cst_18_apply,
    val_main_cst_19_apply, val_main_call1_v0_apply, val_main_call1_cst_apply]
  generalize val_main_v78 (F := Ideal) x0 x1 x2 x3 x4 x5 x6 x7 x11 x12 = h
  have e1 : ∀ c' k : Fin 128, idx_main_v79 (idx_main_v80 (idx_main_v90 (ix2 r c'))) k = ix2 r k := fun c' k => funext fun a => by
    match a with | ⟨0, _⟩ => rfl | ⟨1, _⟩ => rfl
  have e2 : ∀ c' k : Fin 128, idx_main_v86 (idx_main_v87 (idx_main_v95 (ix2 r c'))) k = ix2 r k := fun c' k => funext fun a => by
    match a with | ⟨0, _⟩ => rfl | ⟨1, _⟩ => rfl
  have e3 : ∀ c' k : Fin 128, idx_main_v79 (idx_main_v80 (idx_main_v83 (ix2 r c'))) k = ix2 r k := fun c' k => funext fun a => by
    match a with | ⟨0, _⟩ => rfl | ⟨1, _⟩ => rfl
  have eg : idx_main_v97 (idx_main_v98 (ix2 r c)) = ix1 c := funext fun a => by match a with | ⟨0, _⟩ => rfl
  have eb : idx_main_v100 (idx_main_v101 (ix2 r c)) = ix1 c := funext fun a => by match a with | ⟨0, _⟩ => rfl
  unfold Sage.lnrelu Sage.mean128
  simp only [e1, e2, e3, eg, eb, Ideal.addf_def, Ideal.subf_def, Ideal.mulf_def, Ideal.hostDivf_def, Ideal.maximumf_def,
    Ideal.hostUnary_rsqrt_def, Ideal.ofBits_def, Ideal.ofBits_zero_f32, zero_add]

/-- Layer 2 as one function of its inputs. -/
theorem layer2 (x0 : (⟨S40000x128, .f32⟩ : BufTy).Contents (Elt Ideal)) (x1 : (⟨S2x640000, .i32⟩ : BufTy).Contents (Elt Ideal)) (x2 x3 : (⟨S128x128, .f32⟩ : BufTy).Contents (Elt Ideal)) (x4 : (⟨S128, .f32⟩ : BufTy).Contents (Elt Ideal)) (x5 x6 : (⟨S128x128, .f32⟩ : BufTy).Contents (Elt Ideal)) (x7 x11 x12 : (⟨S128, .f32⟩ : BufTy).Contents (Elt Ideal)) :
    val_main_v103 (F := Ideal) x0 x1 x2 x3 x4 x5 x6 x7 x11 x12
      = Sage.denseLN (val_main_v72 (F := Ideal) x0 x1 x2 x3 x4 x11 x12) (val_main_v53 (F := Ideal) x0 x1 x2 x3 x4 x11 x12) x5 x6
          (fun q => x7 (ix1 q)) (fun q => x11 (ix1 q)) (fun q => x12 (ix1 q)) := by
  rw [ln2, dense2]
  rfl

/-! ## The neighbourhood means of layers 2 and 3

Each stage of the later chains is, name for name, the stage of layer 1's chain: the index arithmetic, the zero
arrays, the in-degree count and its clamp do not mention the node features at all. -/

section Chain
variable {F : FTy → Type} [FloatOps F]

private theorem s2_v4 : val_main_v54 (F := F) = val_main_v4 (F := F) := by
  unfold val_main_v54 val_main_v4 val_main_c_9 val_main_c
  rfl
private theorem s2_v5 (x1 : (⟨S2x640000, .i32⟩ : BufTy).Contents (Elt F)) : val_main_v55 (F := F) x1 = val_main_v5 (F := F) x1 := by
  unfold val_main_v55 val_main_v5
  rw [s2_v4]
private theorem s2_v6 : val_main_v56 (F := F) = val_main_v6 (F := F) := by
  unfold val_main_v56 val_main_v6 val_main_c_10 val_main_c_0
  rfl
private theorem s2_v7 (x1 : (⟨S2x640000, .i32⟩ : BufTy).Contents (Elt F)) : val_main_v57 (F := F) x1 = val_main_v7 (F := F) x1 := by
  unfold val_main_v57 val_main_v7
  rw [s2_v6]
private theorem s2_v8 (x1 : (⟨S2x640000, .i32⟩ : BufTy).Contents (Elt F)) : val_main_v58 (F := F) x1 = val_main_v8 (F := F) x1 := by
  unfold val_main_v58 val_main_v8
  rw [s2_v5, s2_v7]
private theorem s2_v9 (x1 : (⟨S2x640000, .i32⟩ : BufTy).Contents (Elt F)) : val_main_v59 (F := F) x1 = val_main_v9 (F := F) x1 := by
  unfold val_main_v59 val_main_v9
  rw [s2_v8]
private theorem s2_v11 : val_main_v61 (F := F) = val_main_v11 (F := F) := by
  unfold val_main_v61 val_main_v11 val_main_cst_11 val_main_cst
  rfl
private theorem s2_v12 (x1 : (⟨S2x640000, .i32⟩ : BufTy).Contents (Elt F)) : val_main_v62 (F := F) x1 = val_main_v12 (F := F) x1 := by
  unfold val_main_v62 val_main_v12
  rfl
private theorem s2_v14 : val_main_v64 (F := F) = val_main_v14 (F := F) := by
  unfold val_main_v64 val_main_v14 val_main_cst_12 val_main_cst_1
  rfl
private theorem s2_v15 : val_main_v65 (F := F) = val_main_v15 (F := F) := by
  unfold val_main_v65 val_main_v15 val_main_cst_13 val_main_cst_2
  rfl
private theorem s2_v16 (x1 : (⟨S2x640000, .i32⟩ : BufTy).Contents (Elt F)) : val_main_v66 (F := F) x1 = val_main_v16 (F := F) x1 := by
  unfold val_main_v66 val_main_v16
  rfl
private theorem s2_v17 (x1 : (⟨S2x640000, .i32⟩ : BufTy).Contents (Elt F)) : val_main_v67 (F := F) x1 = val_main_v17 (F := F) x1 := by
  unfold val_main_v67 val_main_v17
  rw [s2_v15, s2_v16, s2_v14]
private theorem s2_v18 : val_main_v68 (F := F) = val_main_v18 (F := F) := by
  unfold val_main_v68 val_main_v18 val_main_cst_14 val_main_cst_3
  rfl
private theorem s2_v19 (x1 : (⟨S2x640000, .i32⟩ : BufTy).Contents (Elt F)) : val_main_v69 (F := F) x1 = val_main_v19 (F := F) x1 := by
  unfold val_main_v69 val_main_v19
  rw [s2_v17, s2_v18]
private theorem s2_v20 (x1 : (⟨S2x640000, .i32⟩ : BufTy).Contents (Elt F)) : val_main_v70 (F := F) x1 = val_main_v20 (F := F) x1 := by
  unfold val_main_v70 val_main_v20
  rw [s2_v19]
private theorem s2_v21 (x1 : (⟨S2x640000, .i32⟩ : BufTy).Contents (Elt F)) : val_main_v71 (F := F) x1 = val_main_v21 (F := F) x1 := by
  unfold val_main_v71 val_main_v21
  rw [s2_v20]

/-- The neighbourhood means entering layer 2 are layer 1's chain of array operations applied to the previous
    layer's output: the stages differ only in the array they read. -/
theorem agg2 (x0 : (⟨S40000x128, .f32⟩ : BufTy).Contents (Elt Ideal)) (x1 : (⟨S2x640000, .i32⟩ : BufTy).Contents (Elt Ideal)) (x2 x3 : (⟨S128x128, .f32⟩ : BufTy).Contents (Elt Ideal)) (x4 : (⟨S128, .f32⟩ : BufTy).Contents (Elt Ideal)) (x11 x12 : (⟨S128, .f32⟩ : BufTy).Contents (Elt Ideal)) :
    val_main_v72 (F := Ideal) x0 x1 x2 x3 x4 x11 x12
      = val_main_v22 (F := Ideal) (val_main_v53 (F := Ideal) x0 x1 x2 x3 x4 x11 x12) x1 := by
  unfold val_main_v72 val_main_v22 val_main_v63 val_main_v13 val_main_v60 val_main_v10
  rw [s2_v21, s2_v11, s2_v12, s2_v9]

private theorem s3_v4 : val_main_v104 (F := F) = val_main_v4 (F := F) := by
  unfold val_main_v104 val_main_v4 val_main_c_20 val_main_c
  rfl
private theorem s3_v5 (x1 : (⟨S2x640000, .i32⟩ : BufTy).Contents (Elt F)) : val_main_v105 (F := F) x1 = val_main_v5 (F := F) x1 := by
  unfold val_main_v105 val_main_v5
  rw [s3_v4]
private theorem s3_v6 : val_main_v106 (F := F) = val_main_v6 (F := F) := by
  unfold val_main_v106 val_main_v6 val_main_c_21 val_main_c_0
  rfl
private theorem s3_v7 (x1 : (⟨S2x640000, .i32⟩ : BufTy).Contents (Elt F)) : val_main_v107 (F := F) x1 = val_main_v7 (F := F) x1 := by
  unfold val_main_v107 val_main_v7
  rw [s3_v6]
private theorem s3_v8 (x1 : (⟨S2x640000, .i32⟩ : BufTy).Contents (Elt F)) : val_main_v108 (F := F) x1 = val_main_v8 (F := F) x1 := by
  unfold val_main_v108 val_main_v8
  rw [s3_v5, s3_v7]
private theorem s3_v9 (x1 : (⟨S2x640000, .i32⟩ : BufTy).Contents (Elt F)) : val_main_v109 (F := F) x1 = val_main_v9 (F := F) x1 := by
  unfold val_main_v109 val_main_v9
  rw [s3_v8]
private theorem s3_v11 : val_main_v111 (F := F) = val_main_v11 (F := F) := by
  unfold val_main_v111 val_main_v11 val_main_cst_22 val_main_cst
  rfl
private theorem s3_v12 (x1 : (⟨S2x640000, .i32⟩ : BufTy).Contents (Elt F)) : val_main_v112 (F := F) x1 = val_main_v12 (F := F) x1 := by
  unfold val_main_v112 val_main_v12
  rfl
private theorem s3_v14 : val_main_v114 (F := F) = val_main_v14 (F := F) := by
  unfold val_main_v114 val_main_v14 val_main_cst_23 val_main_cst_1
  rfl
private theorem s3_v15 : val_main_v115 (F := F) = val_main_v15 (F := F) := by
  unfold val_main_v115 val_main_v15 val_main_cst_24 val_main_cst_2
  rfl
private theorem s3_v16 (x1 : (⟨S2x640000, .i32⟩ : BufTy).Contents (Elt F)) : val_main_v116 (F := F) x1 = val_main_v16 (F := F) x1 := by
  unfold val_main_v116 val_main_v16
  rfl
private theorem s3_v17 (x1 : (⟨S2x640000, .i32⟩ : BufTy).Contents (Elt F)) : val_main_v117 (F := F) x1 = val_main_v17 (F := F) x1 := by
  unfold val_main_v117 val_main_v17
  rw [s3_v15, s3_v16, s3_v14]
private theorem s3_v18 : val_main_v118 (F := F) = val_main_v18 (F := F) := by
  unfold val_main_v118 val_main_v18 val_main_cst_25 val_main_cst_3
  rfl
private theorem s3_v19 (x1 : (⟨S2x640000, .i32⟩ : BufTy).Contents (Elt F)) : val_main_v119 (F := F) x1 = val_main_v19 (F := F) x1 := by
  unfold val_main_v119 val_main_v19
  rw [s3_v17, s3_v18]
private theorem s3_v20 (x1 : (⟨S2x640000, .i32⟩ : BufTy).Contents (Elt F)) : val_main_v120 (F := F) x1 = val_main_v20 (F := F) x1 := by
  unfold val_main_v120 val_main_v20
  rw [s3_v19]
private theorem s3_v21 (x1 : (⟨S2x640000, .i32⟩ : BufTy).Contents (Elt F)) : val_main_v121 (F := F) x1 = val_main_v21 (F := F) x1 := by
  unfold val_main_v121 val_main_v21
  rw [s3_v20]

/-- The neighbourhood means entering layer 3 are layer 1's chain of array operations applied to the previous
    layer's output: the stages differ only in the array they read. -/
theorem agg3 (x0 : (⟨S40000x128, .f32⟩ : BufTy).Contents (Elt Ideal)) (x1 : (⟨S2x640000, .i32⟩ : BufTy).Contents (Elt Ideal)) (x2 x3 : (⟨S128x128, .f32⟩ : BufTy).Contents (Elt Ideal)) (x4 : (⟨S128, .f32⟩ : BufTy).Contents (Elt Ideal)) (x5 x6 : (⟨S128x128, .f32⟩ : BufTy).Contents (Elt Ideal)) (x7 x11 x12 : (⟨S128, .f32⟩ : BufTy).Contents (Elt Ideal)) :
    val_main_v122 (F := Ideal) x0 x1 x2 x3 x4 x5 x6 x7 x11 x12
      = val_main_v22 (F := Ideal) (val_main_v103 (F := Ideal) x0 x1 x2 x3 x4 x5 x6 x7 x11 x12) x1 := by
  unfold val_main_v122 val_main_v22 val_main_v113 val_main_v13 val_main_v110 val_main_v10
  rw [s3_v21, s3_v11, s3_v12, s3_v9]

end Chain

end Cert.ReferenceIdeal.Layers

end
-- ==== Proof.Bridge.lean ====
/-
  The kernel program's composed layers are the reference's result term.

  Both programs compute the neighbourhood means by the same host chain — gather at the wrapped source index, add up
  per destination, divide by the clamped in-degree — so the kernel's chain is the reference's first aggregation stage
  as a function of the features it is applied to and the edge table; a parameter vector read off its row layout is
  the vector itself; and the reference's three layers are the same whole-array layer functions (module `RefLayers`).
-/
import proofs.«101974_j3762391351459_1_alg».proof.Proof.KWhole
import proofs.«101974_j3762391351459_1_alg».proof.Proof.RefLayers
import proofs.«101974_j3762391351459_1_alg».proof.Proof.LibBcastRow

set_option maxRecDepth 16384

noncomputable section

namespace Cert.Bridge

open Idealize.ShloMosaic Idealize.ShloMosaic.ValueIdx
open Cert.KernelIdeal.HostRead Cert.KernelIdeal.Whole

/-- The kernel's host chain is the reference's aggregation stage, as functions of the features and the edge table. -/
theorem agg_eq (h : (⟨Cert.KernelIdeal.S40000x128, .f32⟩ : BufTy).Contents (Elt Ideal))
    (e : (⟨Cert.KernelIdeal.S2x640000, .i32⟩ : BufTy).Contents (Elt Ideal)) :
    agg h e = Cert.ReferenceIdeal.Read.val_main_v22 (F := Ideal) h e := by
  unfold agg aggK srcK dstK cntK
  rfl

theorem rowfn128_eq (x : (⟨Cert.KernelIdeal.S128, .f32⟩ : BufTy).Contents (Elt Ideal)) :
    rowfn128 x = fun q => x (ix1 q) :=
  funext fun q => LibBcastRow.shapeCast_b_1b_apply x _ 0 q

theorem rowfn64_eq (x : (⟨Cert.KernelIdeal.S64, .f32⟩ : BufTy).Contents (Elt Ideal)) :
    rowfn64 x = fun q => x (ix1 q) :=
  funext fun q => LibBcastRow.shapeCast_b_1b_apply x _ 0 q

/-- The kernel's three composed layers are the reference's result stage. -/
theorem out_eq (x0 : (⟨Cert.KernelIdeal.S40000x128, .f32⟩ : BufTy).Contents (Elt Ideal))
    (x1 : (⟨Cert.KernelIdeal.S2x640000, .i32⟩ : BufTy).Contents (Elt Ideal))
    (x2 x3 : (⟨Cert.KernelIdeal.S128x128, .f32⟩ : BufTy).Contents (Elt Ideal))
    (x4 : (⟨Cert.KernelIdeal.S128, .f32⟩ : BufTy).Contents (Elt Ideal))
    (x5 x6 : (⟨Cert.KernelIdeal.S128x128, .f32⟩ : BufTy).Contents (Elt Ideal))
    (x7 : (⟨Cert.KernelIdeal.S128, .f32⟩ : BufTy).Contents (Elt Ideal))
    (x8 x9 : (⟨Cert.KernelIdeal.S128x64, .f32⟩ : BufTy).Contents (Elt Ideal))
    (x10 : (⟨Cert.KernelIdeal.S64, .f32⟩ : BufTy).Contents (Elt Ideal))
    (x11 x12 : (⟨Cert.KernelIdeal.S128, .f32⟩ : BufTy).Contents (Elt Ideal)) :
    out x0 x1 x2 x3 x4 x5 x6 x7 x8 x9 x10 x11 x12
      = Cert.ReferenceIdeal.Read.val_main_v128 (F := Ideal) x0 x1 x2 x3 x4 x5 x6 x7 x8 x9 x10 x11 x12 := by
  rw [Cert.ReferenceIdeal.Layers.layer3, Cert.ReferenceIdeal.Layers.agg3, Cert.ReferenceIdeal.Layers.layer2,
    Cert.ReferenceIdeal.Layers.agg2, Cert.ReferenceIdeal.Layers.layer1]
  unfold out h2 h1
  simp only [agg_eq, rowfn128_eq, rowfn64_eq]

end Cert.Bridge

end
-- ==== Proof.lean ====
/-
  The kernel program and the reference compute the same array: three layers of a graph network.

  Each layer forms, for every node, the mean of its in-neighbours' feature rows (gather by source index, add up by
  destination, divide by the in-degree clamped to at least one — the same host operations in both programs), then the
  affine map `mean · Wl + x · Wr + b`; the first two layers normalise each row (mean, variance, reciprocal root, scale,
  shift) and take the positive part.  The kernel program does the affine map and the normalisation in three launched
  regions tiled over bands of 5000 nodes, with operands rounded to a short float format on the way into the products;
  over the extended reals that rounding is the identity, a product accumulated into zeros is the plain sum over the
  contracted axis, and tiling by rows does not change any entry, so each region's output array is the layer function of
  the arrays it finds.  The reference adds the bias before the second product; addition of extended reals is
  commutative and associative, so the two groupings agree with no finiteness needed.  Composing the three layers on
  both sides gives one function of the arguments; the argument arrays are never written.
-/
import proofs.«101974_j3762391351459_1_alg».proof.Defs
import proofs.«101974_j3762391351459_1_alg».proof.Proof.Gen.Kernel
import proofs.«101974_j3762391351459_1_alg».proof.Proof.Gen.Kernel.Frame
import proofs.«101974_j3762391351459_1_alg».proof.Proof.Gen.KernelIdeal
import proofs.«101974_j3762391351459_1_alg».proof.Proof.Gen.KernelIdeal.Frame
import proofs.«101974_j3762391351459_1_alg».proof.Proof.Gen.ReferenceIdeal
import proofs.«101974_j3762391351459_1_alg».proof.Proof.Gen.ReferenceIdeal.Run
import proofs.«101974_j3762391351459_1_alg».proof.Proof.Gen.ReferenceIdeal.Read
import proofs.«101974_j3762391351459_1_alg».proof.Proof.Gen.Pre_finite_inputs
import proofs.«101974_j3762391351459_1_alg».proof.Proof.KRun
import proofs.«101974_j3762391351459_1_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no launched region: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the result array at the three composed layers of the (agreeing) arguments. -/
theorem algebraic : Cert.algebraic_KernelIdeal_ReferenceIdeal := by
  intro m ρ m' ρ' _ hagree
  refine ⟨fun c => Cert.KernelIdeal.Whole.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)), ?_, ?_⟩
  · exact (θ_run Cert.KernelIdeal.defs _ _).mono (fun r h c =>
      ⟨(h c _ (Cert.KernelIdeal.Gen.mem_uc Cert.KernelIdeal.main_v58 (by decide))).trans (Cert.KernelIdeal.Whole.W6_v58 m ρ c),
      (h c _ (Cert.KernelIdeal.Gen.mem_uc Cert.KernelIdeal.main_arg0 (by decide))).trans (Cert.KernelIdeal.Gen.W6_main_arg0 m ρ c),
      (h c _ (Cert.KernelIdeal.Gen.mem_uc Cert.KernelIdeal.main_arg1 (by decide))).trans (Cert.KernelIdeal.Gen.W6_main_arg1 m ρ c),
      (h c _ (Cert.KernelIdeal.Gen.mem_uc Cert.KernelIdeal.main_arg2 (by decide))).trans (Cert.KernelIdeal.Gen.W6_main_arg2 m ρ c),
      (h c _ (Cert.KernelIdeal.Gen.mem_uc Cert.KernelIdeal.main_arg3 (by decide))).trans (Cert.KernelIdeal.Gen.W6_main_arg3 m ρ c),
      (h c _ (Cert.KernelIdeal.Gen.mem_uc Cert.KernelIdeal.main_arg4 (by decide))).trans (Cert.KernelIdeal.Gen.W6_main_arg4 m ρ c),
      (h c _ (Cert.KernelIdeal.Gen.mem_uc Cert.KernelIdeal.main_arg5 (by decide))).trans (Cert.KernelIdeal.Gen.W6_main_arg5 m ρ c),
      (h c _ (Cert.KernelIdeal.Gen.mem_uc Cert.KernelIdeal.main_arg6 (by decide))).trans (Cert.KernelIdeal.Gen.W6_main_arg6 m ρ c),
      (h c _ (Cert.KernelIdeal.Gen.mem_uc Cert.KernelIdeal.main_arg7 (by decide))).trans (Cert.KernelIdeal.Gen.W6_main_arg7 m ρ c),
      (h c _ (Cert.KernelIdeal.Gen.mem_uc Cert.KernelIdeal.main_arg8 (by decide))).trans (Cert.KernelIdeal.Gen.W6_main_arg8 m ρ c),
      (h c _ (Cert.KernelIdeal.Gen.mem_uc Cert.KernelIdeal.main_arg9 (by decide))).trans (Cert.KernelIdeal.Gen.W6_main_arg9 m ρ c),
      (h c _ (Cert.KernelIdeal.Gen.mem_uc Cert.KernelIdeal.main_arg10 (by decide))).trans (Cert.KernelIdeal.Gen.W6_main_arg10 m ρ c),
      (h c _ (Cert.KernelIdeal.Gen.mem_uc Cert.KernelIdeal.main_arg11 (by decide))).trans (Cert.KernelIdeal.Gen.W6_main_arg11 m ρ c),
      (h c _ (Cert.KernelIdeal.Gen.mem_uc Cert.KernelIdeal.main_arg12 (by decide))).trans (Cert.KernelIdeal.Gen.W6_main_arg12 m ρ c)⟩)
      (Cert.KernelIdeal.Run.run_all m ρ)
  · refine (θ_run Cert.ReferenceIdeal.defs _ _).mono (fun r h c => ⟨?_, (h c).2⟩)
      (Cert.ReferenceIdeal.Value.run (F := Ideal) m' ρ')
    obtain ⟨a0, a1, a2, a3, a4, a5, a6, a7, a8, a9, a10, a11, a12⟩ := hagree c
    refine (h c).1.trans ((Cert.ReferenceIdeal.Read.val_main_v128_eq m' c).trans ?_)
    rw [a0, a1, a2, a3, a4, a5, a6, a7, a8, a9, a10, a11, a12]
    exact (Cert.Bridge.out_eq _ _ _ _ _ _ _ _ _ _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
